-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x4096 : Shape := ⟨3, ![8, 128, 4096]⟩
abbrev S128x128 : Shape := ⟨2, ![128, 128]⟩
abbrev S128 : Shape := ⟨1, ![128]⟩
abbrev S_ : Shape := ⟨0, ![]⟩

class Facts : Prop where
  bcast_S_S8x128x4096 : S_.BroadcastsInDim S8x128x4096 (![] : Fin 0 → Fin S8x128x4096.rank)
  reducesTo_S8x128x4096_S_d0_1_2 : S8x128x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x128x4096 .f32) (main_arg1 : FVec F S8x128x4096 .f32) (main_arg2 : FVec F S128x128 .f32) (main_arg3 : FVec F S128 .f32) (main_arg4 : FVec F S128 .f32) (main_arg5 : FVec F S128 .f32) (main_arg6 : FVec F S128 .f32) : IVec S_ 1 :=
  let main_v0 : FVec F S8x128x4096 .f32 := Host.absf main_arg0
  let main_cst : FVec F S_ .f32 := constant S_ .f32 0x7F800000#32
  let main_v1 : FVec F S8x128x4096 .f32 := broadcastInDim S8x128x4096 ![] bcast_S_S8x128x4096 main_cst
  let main_v2 : IVec S8x128x4096 1 := cmpf .olt main_v0 main_v1
  let main_c : IVec S_ 1 := constantI S_ 1 1#1
  let main_v3 : IVec S_ 1 := (fun x v => Host.reduce IntOp.andi x v reducesTo_S8x128x4096_S_d0_1_2 h_S_) main_v2 main_c
  let main_v4 : FVec F S8x128x4096 .f32 := Host.absf main_arg1
  let main_cst_0 : FVec F S_ .f32 := constant S_ .f32 0x7F800000#32
  let main_v5 : FVec F S8x128x4096 .f32 := broadcastInDim S8x128x4096 ![] bcast_S_S8x128x4096 main_cst_0
  let main_v6 : IVec S8x128x4096 1 := cmpf .olt main_v4 main_v5
  let main_c_1 : IVec S_ 1 := constantI S_ 1 1#1
  let main_v7 : IVec S_ 1 := (fun x v => Host.reduce IntOp.andi x v reducesTo_S8x128x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S8x128x4096 : Shape := ⟨3, ![8, 128, 4096]⟩
abbrev S128x128 : Shape := ⟨2, ![128, 128]⟩
abbrev S128 : Shape := ⟨1, ![128]⟩
abbrev S128x1 : Shape := ⟨2, ![128, 1]⟩
abbrev S1x128x4096 : Shape := ⟨3, ![1, 128, 4096]⟩
abbrev S1x128x256 : Shape := ⟨3, ![1, 128, 256]⟩
abbrev S128x4096 : Shape := ⟨2, ![128, 4096]⟩
abbrev S1x4096 : Shape := ⟨2, ![1, 4096]⟩
abbrev S4096 : Shape := ⟨1, ![4096]⟩
abbrev S128x256 : Shape := ⟨2, ![128, 256]⟩
abbrev S256 : Shape := ⟨1, ![256]⟩
abbrev S1x256 : Shape := ⟨2, ![1, 256]⟩
abbrev S256x4096 : Shape := ⟨2, ![256, 4096]⟩

abbrev nBuf : Space → Nat
  | .hbm => 12
  | .vmem => 14
  | .smem => 0
  | _ => 0

abbrev bufTy : (tb : Table) → Fin (tcTables nBuf tb) → BufTy
  | .hbm, ⟨0, _⟩ => ⟨S8x128x4096, .f32⟩
  | .hbm, ⟨1, _⟩ => ⟨S8x128x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S128x1, .f32⟩
  | .hbm, ⟨11, _⟩ => ⟨S8x128x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x256, .f32⟩
  | .local _ .vmem, ⟨3, _⟩ => ⟨S1x128x256, .f32⟩
  | .local _ .vmem, ⟨4, _⟩ => ⟨S128x128, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S1x128x4096, .f32⟩
  | .local _ .vmem, ⟨10, _⟩ => ⟨S1x128x4096, .f32⟩
  | .local _ .vmem, ⟨11, _⟩ => ⟨S128x4096, .bf16⟩
  | .local _ .vmem, ⟨12, _⟩ => ⟨S1x4096, .f32⟩
  | .local _ .vmem, ⟨13, _⟩ => ⟨S128x4096, .f32⟩
  | _, _ => ⟨S8x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_18 : BitVec 32 := 0#32
  let v36 : BitVec 1 := Scalar.cmpi .ne v35 c0_i32_18
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S128_S128x1 : S128.ShapeCasts S128x1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  reduces_S128x4096_S4096 : S128x4096.Reduces [0] S4096
  shapeCasts_S4096_S1x4096 : S4096.ShapeCasts S1x4096
  broadcasts_S1x4096_S128x4096 : S1x4096.Broadcasts S128x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  packedbf16_S128x4096_S128x4096_0_0 : (Rect.unit (s := S128x4096) ![0, 0] S128x4096.size inb_S128x4096_S128x4096_0_0).PackedRows (EltTy.packing .bf16)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  reduces_S128x256_S256 : S128x256.Reduces [0] S256
  shapeCasts_S256_S1x256 : S256.ShapeCasts S1x256
  broadcasts_S1x256_S128x256 : S1x256.Broadcasts S128x256
  reduces_S256x4096_S4096 : S256x4096.Reduces [0] S4096
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  shapeCasts_S128x4096_S1x128x4096 : S128x4096.ShapeCasts S1x128x4096
  dot_S128x256_S128x4096_S256x4096_0_0_1_1_n_n_wf : DotDims.WF S128x256 S128x4096 S256x4096 [0] [0] [1] [1] [] []
  dot_S128x256_S256x4096_S128x4096_1_0_0_1_n_n_wf : DotDims.WF S128x256 S256x4096 S128x4096 [1] [0] [0] [1] [] []
  dot_S128x128_S128x4096_S128x4096_0_0_1_1_n_n_wf : DotDims.WF S128x128 S128x4096 S128x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S8x128x4096.size a
  hwx0_0 : ∀ i : grid0.Coords, EltTy.bits .f32 = 32 ∨ (Rect.block (s := S8x128x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S8x128x4096.size a
  hwx0_1 : ∀ i : grid0.Coords, EltTy.bits .f32 = 32 ∨ (Rect.block (s := S8x128x4096) S1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x4096.size a ≤ S8x128x4096.size a
  hwx0_7 : ∀ i : grid0.Coords, EltTy.bits .f32 = 32 ∨ (Rect.block (s := S8x128x4096) S1x128x4096.size (cc0_transform_7 i) (hinb0_7 i)).WholeWords (EltTy.packing .f32)

variable [Facts₀]

def dot_S128x256_S128x4096_S256x4096_0_0_1_1_n_n : DotDims S128x256 S128x4096 S256x4096 where
  lhsContracting := [0]
  rhsContracting := [0]
  lhsNonContracting := [1]
  rhsNonContracting := [1]
  lhsBatch := []
  rhsBatch := []
  wf := dot_S128x256_S128x4096_S256x4096_0_0_1_1_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf
def dot_S128x128_S128x4096_S128x4096_0_0_1_1_n_n : DotDims S128x128 S128x4096 S128x4096 where
  lhsContracting := [0]
  rhsContracting := [0]
  lhsNonContracting := [1]
  rhsNonContracting := [1]
  lhsBatch := []
  rhsBatch := []
  wf := dot_S128x128_S128x4096_S128x4096_0_0_1_1_n_n_wf

abbrev win0_0 : Pipeline.Window sig grid0 :=
  Pipeline.Window.ofSpec (Memref.whole main_arg1) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x128x4096 : Shape := ⟨3, ![8, 128, 4096]⟩
abbrev S128x128 : Shape := ⟨2, ![128, 128]⟩
abbrev S128 : Shape := ⟨1, ![128]⟩
abbrev S_ : Shape := ⟨0, ![]⟩
abbrev S8x4096 : Shape := ⟨2, ![8, 4096]⟩
abbrev S8x1x4096 : Shape := ⟨3, ![8, 1, 4096]⟩
abbrev S8x4096x4096 : Shape := ⟨3, ![8, 4096, 4096]⟩
abbrev S8x4096x1 : Shape := ⟨3, ![8, 4096, 1]⟩
abbrev S8x4096x128 : Shape := ⟨3, ![8, 4096, 128]⟩
abbrev S128x8x4096 : Shape := ⟨3, ![128, 8, 4096]⟩
abbrev S1x128x1 : Shape := ⟨3, ![1, 128, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x128x4096, .f32⟩
  | .hbm, ⟨1, _⟩ => ⟨S8x128x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S8x128x4096, .f32⟩
  | .hbm, ⟨8, _⟩ => ⟨S_, .f32⟩
  | .hbm, ⟨9, _⟩ => ⟨S8x4096, .f32⟩
  | .hbm, ⟨10, _⟩ => ⟨S8x1x4096, .f32⟩
  | .hbm, ⟨11, _⟩ => ⟨S8x1x4096, .f32⟩
  | .hbm, ⟨12, _⟩ => ⟨S_, .f32⟩
  | .hbm, ⟨13, _⟩ => ⟨S8x1x4096, .f32⟩
  | .hbm, ⟨14, _⟩ => ⟨S8x1x4096, .f32⟩
  | .hbm, ⟨15, _⟩ => ⟨S8x128x4096, .f32⟩
  | .hbm, ⟨16, _⟩ => ⟨S8x128x4096, .f32⟩
  | .hbm, ⟨17, _⟩ => ⟨S8x128x4096, .f32⟩
  | .hbm, ⟨18, _⟩ => ⟨S_, .f32⟩
  | .hbm, ⟨19, _⟩ => ⟨S8x4096, .f32⟩
  | .hbm, ⟨20, _⟩ => ⟨S8x1x4096, .f32⟩
  | .hbm, ⟨21, _⟩ => ⟨S8x1x4096, .f32⟩
  | .hbm, ⟨22, _⟩ => ⟨S_, .f32⟩
  | .hbm, ⟨23, _⟩ => ⟨S8x1x4096, .f32⟩
  | .hbm, ⟨24, _⟩ => ⟨S8x1x4096, .f32⟩
  | .hbm, ⟨25, _⟩ => ⟨S8x128x4096, .f32⟩
  | .hbm, ⟨26, _⟩ => ⟨S8x128x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x4096x128, .f32⟩
  | .hbm, ⟨43, _⟩ => ⟨S128x8x4096, .f32⟩
  | .hbm, ⟨44, _⟩ => ⟨S8x128x4096, .f32⟩
  | .hbm, ⟨45, _⟩ => ⟨S_, .f32⟩
  | .hbm, ⟨46, _⟩ => ⟨S8x128x4096, .f32⟩
  | .hbm, ⟨47, _⟩ => ⟨S8x128x4096, .i1⟩
  | .hbm, ⟨48, _⟩ => ⟨S_, .f32⟩
  | .hbm, ⟨49, _⟩ => ⟨S8x128x4096, .f32⟩
  | .hbm, ⟨50, _⟩ => ⟨S8x128x4096, .f32⟩
  | .hbm, ⟨51, _⟩ => ⟨S8x128x4096, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128x1, .f32⟩
  | .hbm, ⟨57, _⟩ => ⟨S8x128x4096, .f32⟩
  | .hbm, ⟨58, _⟩ => ⟨S8x128x4096, .f32⟩
  | .hbm, ⟨59, _⟩ => ⟨S128, .f32⟩
  | .hbm, ⟨60, _⟩ => ⟨S1x128x1, .f32⟩
  | .hbm, ⟨61, _⟩ => ⟨S8x128x4096, .f32⟩
  | .hbm, ⟨62, _⟩ => ⟨S8x128x4096, .f32⟩
  | .hbm, ⟨63, _⟩ => ⟨S1x128x1, .f32⟩
  | .hbm, ⟨64, _⟩ => ⟨S8x128x4096, .f32⟩
  | .hbm, ⟨65, _⟩ => ⟨S8x128x4096, .f32⟩
  | _, _ => ⟨S8x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  reducesTo_S8x128x4096_S8x4096_d1 : S8x128x4096.ReducesTo [1] S8x4096
  h_S_ : 0 < S_.numel
  bcast_S8x4096_S8x1x4096_0_2 : S8x4096.BroadcastsInDim S8x1x4096 (![0, 2] : Fin 2 → Fin S8x1x4096.rank)
  bcast_S_S8x1x4096 : S_.BroadcastsInDim S8x1x4096 (![] : Fin 0 → Fin S8x1x4096.rank)
  bcast_S8x1x4096_S8x128x4096_0_1_2 : S8x1x4096.BroadcastsInDim S8x128x4096 (![0, 1, 2] : Fin 3 → Fin S8x128x4096.rank)
  reducesTo_S8x4096x4096_S8x4096_d2 : S8x4096x4096.ReducesTo [2] S8x4096
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S128x8x4096_S8x128x4096_1_0_2 : S128x8x4096.Transposes [1, 0, 2] S8x128x4096
  bcast_S_S8x128x4096 : S_.BroadcastsInDim S8x128x4096 (![] : Fin 0 → Fin S8x128x4096.rank)
  bcast_S_S128 : S_.BroadcastsInDim S128 (![] : Fin 0 → Fin S128.rank)
  bcast_S128_S1x128x1_1 : S128.BroadcastsInDim S1x128x1 (![1] : Fin 1 → Fin S1x128x1.rank)
  bcast_S1x128x1_S8x128x4096_0_1_2 : S1x128x1.BroadcastsInDim S8x128x4096 (![0, 1, 2] : Fin 3 → Fin S8x128x4096.rank)
  dot_S8x128x4096_S8x128x4096_S8x4096x4096_1_1_2_2_0_0_wf : DotDims.WF S8x128x4096 S8x128x4096 S8x4096x4096 [1] [1] [2] [2] [0] [0]
  dot_S8x4096x4096_S8x128x4096_S8x4096x128_2_2_1_1_0_0_wf : DotDims.WF S8x4096x4096 S8x128x4096 S8x4096x128 [2] [2] [1] [1] [0] [0]
  dot_S128x128_S8x4096x128_S128x8x4096_0_2_1_01_n_n_wf : DotDims.WF S128x128 S8x4096x128 S128x8x4096 [0] [2] [1] [0, 1] [] []

variable [Facts₀]

def dot_S8x128x4096_S8x128x4096_S8x4096x4096_1_1_2_2_0_0 : DotDims S8x128x4096 S8x128x4096 S8x4096x4096 where
  lhsContracting := [1]
  rhsContracting := [1]
  lhsNonContracting := [2]
  rhsNonContracting := [2]
  lhsBatch := [0]
  rhsBatch := [0]
  wf := dot_S8x128x4096_S8x128x4096_S8x4096x4096_1_1_2_2_0_0_wf
def dot_S8x4096x4096_S8x128x4096_S8x4096x128_2_2_1_1_0_0 : DotDims S8x4096x4096 S8x128x4096 S8x4096x128 where
  lhsContracting := [2]
  rhsContracting := [2]
  lhsNonContracting := [1]
  rhsNonContracting := [1]
  lhsBatch := [0]
  rhsBatch := [0]
  wf := dot_S8x4096x4096_S8x128x4096_S8x4096x128_2_2_1_1_0_0_wf
def dot_S128x128_S8x4096x128_S128x8x4096_0_2_1_01_n_n : DotDims S128x128 S8x4096x128 S128x8x4096 where
  lhsContracting := [0]
  rhsContracting := [2]
  lhsNonContracting := [1]
  rhsNonContracting := [0, 1]
  lhsBatch := []
  rhsBatch := []
  wf := dot_S128x128_S8x4096x128_S128x8x4096_0_2_1_01_n_n_wf

class Facts : Prop extends Facts₀ where

variable [Facts]
-- ==== Proof.Spec.lean ====
/-
  The common specification of the two programs, over the extended reals.

  Per batch `b` the inputs are `X = input[b]` and `T = target_g[b]`, both `[128, 4096]` (channels × positions).
  Every column is scaled to unit length, with the length clamped below by a small positive constant:
  `unit A b c j = A[b,c,j] / max (√(Σ_c A[b,c,j]²)) floor`.  The score of a target position `m` against an input
  position `n` is the inner product of the two unit columns, `score b m n = Σ_c unit T b c m · unit X b c n`.
  The aggregate is the softmax-weighted mean of the input columns,
  `agg b c m = Σ_n softmax_n(score b m ·) n · X[b,c,n]`, written here in the two forms the programs use:
  `aggShift` shifts every score by one fixed constant and divides the weighted sum by the sum of the weights ONCE,
  `aggSoft` shifts by a per-row constant and divides each weight before summing.  They agree when everything is
  finite (Proof/ShiftLaw.lean).  What follows the aggregate is the same on both sides: the projection by the weight
  matrix, the leaky rectifier, and the affine normalisation by the running statistics (`finish`).
-/
import Idealize.ShloMosaic.PureOps.Ideal
import Idealize.ShloMosaic.Lib.ValueIdx

noncomputable section

namespace Cert.Attn

open Idealize.ShloMosaic Idealize.ShloMosaic.ValueIdx
open scoped BigOperators

/-- `[8, 128, 4096]`: batch × channel × position. -/
abbrev A3 : Shape := ⟨3, ![8, 128, 4096]⟩
/-- `[128, 128]`: the projection matrix, input channel × output channel. -/
abbrev W2 : Shape := ⟨2, ![128, 128]⟩
/-- `[128]`: one number per output channel. -/
abbrev V1 : Shape := ⟨1, ![128]⟩

/-- The clamp below a column's length. -/
def floor : EReal := Ideal.ofBits .f32 0x2B8CBCCC#32
/-- The kernel's fixed shift of the scores. -/
def shift : EReal := Ideal.ofBits .f32 0x3F800000#32
/-- The rectifier's slope on the negative side. -/
def slope : EReal := Ideal.ofBits .f32 0x3C23D70A#32
/-- The constant added to the running variance. -/
def varEps : EReal := Ideal.ofBits .f32 0x3727C5AC#32

/-- The clamped length of column `j` of batch `b`. -/
def len (A : A3.Idx → EReal) (b : Fin 8) (j : Fin 4096) : EReal :=
  max (Ideal.sqrt (∑ c : Fin 128, A (ix3 b c j) * A (ix3 b c j))) floor

/-- Entry `c` of the unit column `j` of batch `b`. -/
def unit (A : A3.Idx → EReal) (b : Fin 8) (c : Fin 128) (j : Fin 4096) : EReal :=
  Ideal.div (A (ix3 b c j)) (len A b j)

/-- The cosine score of target position `m` against input position `n`. -/
def score (X T : A3.Idx → EReal) (b : Fin 8) (m n : Fin 4096) : EReal :=
  ∑ c : Fin 128, unit T b c m * unit X b c n

/-- The aggregate with ONE shift `a` of every score and ONE division: `(Σ_n X[c,n]·e^{s_n − a}) / (Σ_n e^{s_n − a})`. -/
def aggShift (X T : A3.Idx → EReal) (a : EReal) (b : Fin 8) (c : Fin 128) (m : Fin 4096) : EReal :=
  Ideal.div (∑ n : Fin 4096, X (ix3 b c n) * Ideal.exp (score X T b m n - a))
    (∑ n : Fin 4096, Ideal.exp (score X T b m n - a))

/-- The aggregate with a shift `μ` and every weight divided before the sum:
    `Σ_n (e^{s_n − μ} / Σ_k e^{s_k − μ}) · X[c,n]`. -/
def aggSoft (X T : A3.Idx → EReal) (μ : EReal) (b : Fin 8) (m : Fin 4096) (c : Fin 128) : EReal :=
  ∑ n : Fin 4096, Ideal.div (Ideal.exp (score X T b m n - μ)) (∑ k : Fin 4096, Ideal.exp (score X T b m k - μ))
    * X (ix3 b c n)

/-- The projection of an aggregated column by the weight matrix: `Σ_c W[c,o] · agg c`. -/
def proj (W : W2.Idx → EReal) (agg : Fin 128 → EReal) (o : Fin 128) : EReal :=
  ∑ c : Fin 128, W (ix2 c o) * agg c

/-- The leaky rectifier followed by the normalisation `(y − mean) · (rsqrt(var + ε) · γ) + β`. -/
def finish (y g be mu va : EReal) : EReal :=
  (Scalar.select (FloatOps.cmpf (F := Ideal) (φ := .f32) .oge y (Ideal.ofBits .f32 0x00000000#32)) y (slope * y) - mu)
    * (Ideal.rsqrt (va + varEps) * g) + be

/-- The result array from an aggregate `agg b c m`. -/
def result (W : W2.Idx → EReal) (gam bet mu var : V1.Idx → EReal) (agg : Fin 8 → Fin 128 → Fin 4096 → EReal) :
    A3.Idx → EReal := fun i =>
  finish (proj W (fun c => agg (i 0) c (i 2)) (i 1)) (gam (ix1 (i 1))) (bet (ix1 (i 1))) (mu (ix1 (i 1))) (var (ix1 (i 1)))

end Cert.Attn

end
-- ==== Proof.TileSum.lean ====
/-
  A sum over 4096 positions taken tile by tile: 16 tiles of 256 consecutive positions.

  Position `n < 4096` is `256·j + r` for exactly one pair `j < 16`, `r < 256` (quotient and remainder by 256),
  so the sum over all positions is the iterated sum over tiles and over the positions inside each tile.
-/
import Mathlib

namespace Cert.TileSum

open scoped BigOperators

/-- Position `r` of tile `j`. -/
def tidx (j : ℕ) (r : Fin 256) : Fin 4096 := ⟨(256 * j + r.val) % 4096, Nat.mod_lt _ (by norm_num)⟩

/-- The sum of `f` over tile `j`. -/
def tile {M : Type} [AddCommMonoid M] (f : Fin 4096 → M) (j : ℕ) : M := ∑ r : Fin 256, f (tidx j r)

/-- For the sixteen tiles the reduction modulo 4096 does nothing: `256·j + r < 4096`. -/
theorem tidx_val (j : ℕ) (hj : j < 16) (r : Fin 256) : (tidx j r).val = 256 * j + r.val := by
  have hr := r.isLt
  show (256 * j + r.val) % 4096 = 256 * j + r.val
  exact Nat.mod_eq_of_lt (by omega)

/-- Quotient and remainder by 256 identify the positions with the pairs (tile, position in the tile). -/
def split : Fin 16 × Fin 256 ≃ Fin 4096 where
  toFun p := ⟨256 * p.1.val + p.2.val, by have := p.1.isLt; have := p.2.isLt; omega⟩
  invFun n := (⟨n.val / 256, by have := n.isLt; omega⟩, ⟨n.val % 256, Nat.mod_lt _ (by norm_num)⟩)
  left_inv p := by
    have h1 := p.1.isLt; have h2 := p.2.isLt
    refine Prod.ext (Fin.ext ?_) (Fin.ext ?_)
    · show (256 * p.1.val + p.2.val) / 256 = p.1.val
      omega
    · show (256 * p.1.val + p.2.val) % 256 = p.2.val
      omega
  right_inv n := by
    refine Fin.ext ?_
    show 256 * (n.val / 256) + n.val % 256 = n.val
    omega

/-- The sixteen tile sums add up to the sum over all positions. -/
theorem tiles_all {M : Type} [AddCommMonoid M] (f : Fin 4096 → M) :
    ∑ j ∈ Finset.range 16, tile f j = ∑ n : Fin 4096, f n := by
  rw [← Fin.sum_univ_eq_sum_range (fun j => tile f j) 16]
  rw [← Equiv.sum_comp split f, Fintype.sum_prod_type]
  refine Finset.sum_congr rfl (fun j _ => Finset.sum_congr rfl (fun r _ => ?_))
  congr 1
  exact Fin.ext (tidx_val j.val j.isLt r)

end Cert.TileSum
-- ==== Proof.Pieces.lean ====
/-
  What each case of the kernel body leaves behind, as values.

  The body keeps three buffers between grid points: the unit target columns `U` (stored at the first tile of a
  batch), the running sum `L` of the weights over the input positions seen so far, and the running weighted sum
  `S` of the input columns.  At the first tile of a batch it stores `U := unit(T)`, `L := 0`, `S := 0` and then
  adds the tile's contribution; at the other tiles it adds the tile's contribution to what the tile before left;
  at the last tile it also stores the result block computed from the final `S` and `L`.  Each lemma below reads one
  buffer after one case as the payload of the last store that covers it.
-/
import proofs.«154519_j17824114278455_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the buffer `U` holds the unit target columns. -/
theorem first_U (c : Dev nD) (i : grid0.Coords) (arg2 : Memref sig .tc .vmem S1x128x4096 .f32) (harg2 : arg2.IsWhole) (arg3 : Memref sig .tc .vmem S1x128x256 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x4096 .f32) (harg9 : arg9.IsWhole) (arg10 : Memref sig .tc .vmem S128x4096 .bf16) (harg10 : arg10.IsWhole) (arg11 : Memref sig .tc .vmem S1x4096 .f32) (harg11 : arg11.IsWhole) (arg12 : Memref sig .tc .vmem S128x4096 .f32) (harg12 : arg12.IsWhole) (hc0 : cond0_0 i) (hc1 : ¬cond0_1 i)
    (x0 : Vec F S1x128x4096 .f32) (x1 : Vec F S1x128x256 .f32) (x2 : Vec F S128x128 .f32) (x3 : Vec F S128x1 .f32) (x4 : Vec F S128x1 .f32) (x5 : Vec F S128x1 .f32) (x6 : Vec F S128x1 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x128x4096) hz3, View.ld_unit_zero (S := S1x128x256) hz3, View.ld_unit_zero (S := S128x4096) hz2, View.ld_unit_zero (S := S1x4096) hz2, View.ld_unit_zero (S := S128x128) hz2, View.ld_unit_zero (S := S128x1) hz2, View.readCov_unit_zero (S := S128x4096) _ hz2, View.readCov_unit_zero (S := S1x4096) _ hz2]

/-- First tile of a batch: `L` is the tile's weight sums added to the zero row. -/
theorem first_L (c : Dev nD) (i : grid0.Coords) (arg2 : Memref sig .tc .vmem S1x128x4096 .f32) (harg2 : arg2.IsWhole) (arg3 : Memref sig .tc .vmem S1x128x256 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x4096 .f32) (harg9 : arg9.IsWhole) (arg10 : Memref sig .tc .vmem S128x4096 .bf16) (harg10 : arg10.IsWhole) (arg11 : Memref sig .tc .vmem S1x4096 .f32) (harg11 : arg11.IsWhole) (arg12 : Memref sig .tc .vmem S128x4096 .f32) (harg12 : arg12.IsWhole) (hc0 : cond0_0 i) (hc1 : ¬cond0_1 i)
    (x0 : Vec F S1x128x4096 .f32) (x1 : Vec F S1x128x256 .f32) (x2 : Vec F S128x128 .f32) (x3 : Vec F S128x1 .f32) (x4 : Vec F S128x1 .f32) (x5 : Vec F S128x1 .f32) (x6 : Vec F S128x1 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay7 x1 (k0_pay2 x0) k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1x4096) hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x128x4096) hz3, View.ld_unit_zero (S := S1x128x256) hz3, View.ld_unit_zero (S := S128x4096) hz2, View.ld_unit_zero (S := S1x4096) hz2, View.ld_unit_zero (S := S128x128) hz2, View.ld_unit_zero (S := S128x1) hz2, View.readCov_unit_zero (S := S128x4096) _ hz2, View.readCov_unit_zero (S := S1x4096) _ hz2]

/-- First tile of a batch: `S` is the tile's weighted columns added to the zero block. -/
theorem first_S (c : Dev nD) (i : grid0.Coords) (arg2 : Memref sig .tc .vmem S1x128x4096 .f32) (harg2 : arg2.IsWhole) (arg3 : Memref sig .tc .vmem S1x128x256 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x4096 .f32) (harg9 : arg9.IsWhole) (arg10 : Memref sig .tc .vmem S128x4096 .bf16) (harg10 : arg10.IsWhole) (arg11 : Memref sig .tc .vmem S1x4096 .f32) (harg11 : arg11.IsWhole) (arg12 : Memref sig .tc .vmem S128x4096 .f32) (harg12 : arg12.IsWhole) (hc0 : cond0_0 i) (hc1 : ¬cond0_1 i)
    (x0 : Vec F S1x128x4096 .f32) (x1 : Vec F S1x128x256 .f32) (x2 : Vec F S128x128 .f32) (x3 : Vec F S128x1 .f32) (x4 : Vec F S128x1 .f32) (x5 : Vec F S128x1 .f32) (x6 : Vec F S128x1 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay8 x1 (k0_pay2 x0) k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S128x4096) hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x128x4096) hz3, View.ld_unit_zero (S := S1x128x256) hz3, View.ld_unit_zero (S := S128x4096) hz2, View.ld_unit_zero (S := S1x4096) hz2, View.ld_unit_zero (S := S128x128) hz2, View.ld_unit_zero (S := S128x1) hz2, View.readCov_unit_zero (S := S128x4096) _ hz2, View.readCov_unit_zero (S := S1x4096) _ hz2]

/-- A middle tile: `L` is the tile's weight sums added to what the tile before left. -/
theorem mid_L (c : Dev nD) (i : grid0.Coords) (arg2 : Memref sig .tc .vmem S1x128x4096 .f32) (harg2 : arg2.IsWhole) (arg3 : Memref sig .tc .vmem S1x128x256 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x4096 .f32) (harg9 : arg9.IsWhole) (arg10 : Memref sig .tc .vmem S128x4096 .bf16) (harg10 : arg10.IsWhole) (arg11 : Memref sig .tc .vmem S1x4096 .f32) (harg11 : arg11.IsWhole) (arg12 : Memref sig .tc .vmem S128x4096 .f32) (harg12 : arg12.IsWhole) (hc0 : ¬cond0_0 i) (hc1 : ¬cond0_1 i)
    (x0 : Vec F S1x128x4096 .f32) (x1 : Vec F S1x128x256 .f32) (x2 : Vec F S128x128 .f32) (x3 : Vec F S128x1 .f32) (x4 : Vec F S128x1 .f32) (x5 : Vec F S128x1 .f32) (x6 : Vec F S128x1 .f32)
    (xs0 : Vec F S128x4096 .bf16) (xs1 : Vec F S1x4096 .f32) (xs2 : Vec F S128x4096 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay7 x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x128x4096) hz3, View.ld_unit_zero (S := S1x128x256) hz3, View.ld_unit_zero (S := S128x4096) hz2, View.ld_unit_zero (S := S1x4096) hz2, View.ld_unit_zero (S := S128x128) hz2, View.ld_unit_zero (S := S128x1) hz2, View.readCov_unit_zero (S := S128x4096) _ hz2, View.readCov_unit_zero (S := S1x4096) _ hz2]

/-- A middle tile: `S` is the tile's weighted columns added to what the tile before left. -/
theorem mid_S (c : Dev nD) (i : grid0.Coords) (arg2 : Memref sig .tc .vmem S1x128x4096 .f32) (harg2 : arg2.IsWhole) (arg3 : Memref sig .tc .vmem S1x128x256 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x4096 .f32) (harg9 : arg9.IsWhole) (arg10 : Memref sig .tc .vmem S128x4096 .bf16) (harg10 : arg10.IsWhole) (arg11 : Memref sig .tc .vmem S1x4096 .f32) (harg11 : arg11.IsWhole) (arg12 : Memref sig .tc .vmem S128x4096 .f32) (harg12 : arg12.IsWhole) (hc0 : ¬cond0_0 i) (hc1 : ¬cond0_1 i)
    (x0 : Vec F S1x128x4096 .f32) (x1 : Vec F S1x128x256 .f32) (x2 : Vec F S128x128 .f32) (x3 : Vec F S128x1 .f32) (x4 : Vec F S128x1 .f32) (x5 : Vec F S128x1 .f32) (x6 : Vec F S128x1 .f32)
    (xs0 : Vec F S128x4096 .bf16) (xs1 : Vec F S1x4096 .f32) (xs2 : Vec F S128x4096 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay8 x1 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x128x4096) hz3, View.ld_unit_zero (S := S1x128x256) hz3, View.ld_unit_zero (S := S128x4096) hz2, View.ld_unit_zero (S := S1x4096) hz2, View.ld_unit_zero (S := S128x128) hz2, View.ld_unit_zero (S := S128x1) hz2, View.readCov_unit_zero (S := S128x4096) _ hz2, View.readCov_unit_zero (S := S1x4096) _ hz2]

/-- The last tile: `L` as at a middle tile. -/
theorem last_L (c : Dev nD) (i : grid0.Coords) (arg2 : Memref sig .tc .vmem S1x128x4096 .f32) (harg2 : arg2.IsWhole) (arg3 : Memref sig .tc .vmem S1x128x256 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x4096 .f32) (harg9 : arg9.IsWhole) (arg10 : Memref sig .tc .vmem S128x4096 .bf16) (harg10 : arg10.IsWhole) (arg11 : Memref sig .tc .vmem S1x4096 .f32) (harg11 : arg11.IsWhole) (arg12 : Memref sig .tc .vmem S128x4096 .f32) (harg12 : arg12.IsWhole) (hc0 : ¬cond0_0 i) (hc1 : cond0_1 i)
    (x0 : Vec F S1x128x4096 .f32) (x1 : Vec F S1x128x256 .f32) (x2 : Vec F S128x128 .f32) (x3 : Vec F S128x1 .f32) (x4 : Vec F S128x1 .f32) (x5 : Vec F S128x1 .f32) (x6 : Vec F S128x1 .f32)
    (xs0 : Vec F S128x4096 .bf16) (xs1 : Vec F S1x4096 .f32) (xs2 : Vec F S128x4096 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay7 x1 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x128x4096) hz3, View.ld_unit_zero (S := S1x128x256) hz3, View.ld_unit_zero (S := S128x4096) hz2, View.ld_unit_zero (S := S1x4096) hz2, View.ld_unit_zero (S := S128x128) hz2, View.ld_unit_zero (S := S128x1) hz2, View.readCov_unit_zero (S := S128x4096) _ hz2, View.readCov_unit_zero (S := S1x4096) _ hz2]

/-- The last tile: `S` as at a middle tile. -/
theorem last_S (c : Dev nD) (i : grid0.Coords) (arg2 : Memref sig .tc .vmem S1x128x4096 .f32) (harg2 : arg2.IsWhole) (arg3 : Memref sig .tc .vmem S1x128x256 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x4096 .f32) (harg9 : arg9.IsWhole) (arg10 : Memref sig .tc .vmem S128x4096 .bf16) (harg10 : arg10.IsWhole) (arg11 : Memref sig .tc .vmem S1x4096 .f32) (harg11 : arg11.IsWhole) (arg12 : Memref sig .tc .vmem S128x4096 .f32) (harg12 : arg12.IsWhole) (hc0 : ¬cond0_0 i) (hc1 : cond0_1 i)
    (x0 : Vec F S1x128x4096 .f32) (x1 : Vec F S1x128x256 .f32) (x2 : Vec F S128x128 .f32) (x3 : Vec F S128x1 .f32) (x4 : Vec F S128x1 .f32) (x5 : Vec F S128x1 .f32) (x6 : Vec F S128x1 .f32)
    (xs0 : Vec F S128x4096 .bf16) (xs1 : Vec F S1x4096 .f32) (xs2 : Vec F S128x4096 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay8 x1 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x128x4096) hz3, View.ld_unit_zero (S := S1x128x256) hz3, View.ld_unit_zero (S := S128x4096) hz2, View.ld_unit_zero (S := S1x4096) hz2, View.ld_unit_zero (S := S128x128) hz2, View.ld_unit_zero (S := S128x1) hz2, View.readCov_unit_zero (S := S128x4096) _ hz2, View.readCov_unit_zero (S := S1x4096) _ hz2]

/-- The last tile: the result block, computed from the final `S` and `L`, the weight matrix and the four per-channel vectors. -/
theorem last_out (c : Dev nD) (i : grid0.Coords) (arg2 : Memref sig .tc .vmem S1x128x4096 .f32) (harg2 : arg2.IsWhole) (arg3 : Memref sig .tc .vmem S1x128x256 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x4096 .f32) (harg9 : arg9.IsWhole) (arg10 : Memref sig .tc .vmem S128x4096 .bf16) (harg10 : arg10.IsWhole) (arg11 : Memref sig .tc .vmem S1x4096 .f32) (harg11 : arg11.IsWhole) (arg12 : Memref sig .tc .vmem S128x4096 .f32) (harg12 : arg12.IsWhole) (hc0 : ¬cond0_0 i) (hc1 : cond0_1 i)
    (x0 : Vec F S1x128x4096 .f32) (x1 : Vec F S1x128x256 .f32) (x2 : Vec F S128x128 .f32) (x3 : Vec F S128x1 .f32) (x4 : Vec F S128x1 .f32) (x5 : Vec F S128x1 .f32) (x6 : Vec F S128x1 .f32)
    (xs0 : Vec F S128x4096 .bf16) (xs1 : Vec F S1x4096 .f32) (xs2 : Vec F S128x4096 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay8 x1 xs0 xs2) (k0_pay7 x1 xs0 xs1) x2 x6 x3 x5 x4 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg10.read_unread, harg11.read_unread, harg12.read_unread, View.ld_unit_zero (S := S1x128x4096) hz3, View.ld_unit_zero (S := S1x128x256) hz3, View.ld_unit_zero (S := S128x4096) hz2, View.ld_unit_zero (S := S1x4096) hz2, View.ld_unit_zero (S := S128x128) hz2, View.ld_unit_zero (S := S128x1) hz2, View.readCov_unit_zero (S := S128x4096) _ hz2, View.readCov_unit_zero (S := S1x4096) _ hz2]

end Cert.KernelIdeal.Pieces

end
-- ==== Proof.Blocks.lean ====
/-
  The input blocks of a grid point, read off the argument arrays.

  Point `t` of the `8 × 16` grid is batch `t / 16`, tile `t % 16`.  Its target block is the whole of `target_g[t/16]`,
  its input block the 256 positions `256·(t%16) … 256·(t%16)+255` of `input[t/16]`; the weight matrix and the four
  per-channel columns are the same at every point, the columns being the `[128] → [128, 1]` reshapes of the vectors.
-/
import proofs.«154519_j17824114278455_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The batch of a grid point. -/
def batch (t : Fin cfg0.N) : Fin 8 := ⟨t.val / 16, by have h : t.val < 128 := lt_of_lt_of_eq t.isLt N_0; omega⟩
/-- Position `r` of the tile of a grid point, among the 4096 input positions. -/
def pos (t : Fin cfg0.N) (r : Fin 256) : Fin 4096 := ⟨256 * (t.val % 16) + r.val, by have := r.isLt; omega⟩

/-- The index maps of the target window, the input window and the result window at point `t`. -/
theorem idx0 : ∀ t : Fin cfg0.N, win0_0.index t 0 = t.val / 16 ∧ win0_0.index t 1 = 0 ∧ win0_0.index t 2 = 0 :=
  (by decide +kernel : ∀ t : Fin grid0.N, win0_0.index t 0 = t.val / 16 ∧ win0_0.index t 1 = 0 ∧ win0_0.index t 2 = 0)
theorem idx1 : ∀ t : Fin cfg0.N, win0_1.index t 0 = t.val / 16 ∧ win0_1.index t 1 = 0 ∧ win0_1.index t 2 = t.val % 16 :=
  (by decide +kernel : ∀ t : Fin grid0.N, win0_1.index t 0 = t.val / 16 ∧ win0_1.index t 1 = 0 ∧ win0_1.index t 2 = t.val % 16)
theorem idx7 : ∀ t : Fin cfg0.N, win0_7.index t 0 = t.val / 16 ∧ win0_7.index t 1 = 0 ∧ win0_7.index t 2 = 0 :=
  (by decide +kernel : ∀ t : Fin grid0.N, win0_7.index t 0 = t.val / 16 ∧ win0_7.index t 1 = 0 ∧ win0_7.index t 2 = 0)

theorem idxc2 : ∀ t : Fin cfg0.N, win0_2.index t 0 = 0 ∧ win0_2.index t 1 = 0 :=
  (by decide +kernel : ∀ t : Fin grid0.N, win0_2.index t 0 = 0 ∧ win0_2.index t 1 = 0)
theorem idxc3 : ∀ t : Fin cfg0.N, win0_3.index t 0 = 0 ∧ win0_3.index t 1 = 0 :=
  (by decide +kernel : ∀ t : Fin grid0.N, win0_3.index t 0 = 0 ∧ win0_3.index t 1 = 0)
theorem idxc4 : ∀ t : Fin cfg0.N, win0_4.index t 0 = 0 ∧ win0_4.index t 1 = 0 :=
  (by decide +kernel : ∀ t : Fin grid0.N, win0_4.index t 0 = 0 ∧ win0_4.index t 1 = 0)
theorem idxc5 : ∀ t : Fin cfg0.N, win0_5.index t 0 = 0 ∧ win0_5.index t 1 = 0 :=
  (by decide +kernel : ∀ t : Fin grid0.N, win0_5.index t 0 = 0 ∧ win0_5.index t 1 = 0)
theorem idxc6 : ∀ t : Fin cfg0.N, win0_6.index t 0 = 0 ∧ win0_6.index t 1 = 0 :=
  (by decide +kernel : ∀ t : Fin grid0.N, win0_6.index t 0 = 0 ∧ win0_6.index t 1 = 0)

/-- The target block of point `t` is `target_g[t/16]`. -/
theorem target_apply (c : Dev nD) (t : Fin cfg0.N) (cc : Fin 128) (mm : Fin 4096) :
    (iblk m c 0 t : Vec F S1x128x4096 .f32) (ix3 (0 : Fin 1) cc mm)
      = m ((c : Thread nD τ).loc main_arg1) (ix3 (batch t) cc mm) := by
  obtain ⟨h0, h1, h2⟩ := idx0 t
  unfold iblk
  rw [View.read_apply]
  show V m c main_arg1 _ = _
  rw [V_main_arg1]
  refine congrArg _ (funext fun a => Fin.ext ?_)
  match a with
  | ⟨0, _⟩ => show win0_0.index t 0 * 1 + 1 * (0 : Fin 1).val = t.val / 16; rw [h0]; show t.val / 16 * 1 + 1 * 0 = _; omega
  | ⟨1, _⟩ => show win0_0.index t 1 * 128 + 1 * cc.val = cc.val; rw [h1]; omega
  | ⟨2, _⟩ => show win0_0.index t 2 * 4096 + 1 * mm.val = mm.val; rw [h2]; omega

/-- The input block of point `t` is the tile `t % 16` of `input[t/16]`. -/
theorem input_apply (c : Dev nD) (t : Fin cfg0.N) (cc : Fin 128) (r : Fin 256) :
    (iblk m c 1 t : Vec F S1x128x256 .f32) (ix3 (0 : Fin 1) cc r)
      = m ((c : Thread nD τ).loc main_arg0) (ix3 (batch t) cc (pos t r)) := by
  obtain ⟨h0, h1, h2⟩ := idx1 t
  unfold iblk
  rw [View.read_apply]
  show V m c main_arg0 _ = _
  rw [V_main_arg0]
  refine congrArg _ (funext fun a => Fin.ext ?_)
  match a with
  | ⟨0, _⟩ => show win0_1.index t 0 * 1 + 1 * (0 : Fin 1).val = t.val / 16; rw [h0]; show t.val / 16 * 1 + 1 * 0 = _; omega
  | ⟨1, _⟩ => show win0_1.index t 1 * 128 + 1 * cc.val = cc.val; rw [h1]; omega
  | ⟨2, _⟩ => show win0_1.index t 2 * 256 + 1 * r.val = 256 * (t.val % 16) + r.val; rw [h2]; omega

/-- The weight block of every point is the weight matrix. -/
theorem weight_apply (c : Dev nD) (t : Fin cfg0.N) (cc o : Fin 128) :
    (iblk m c 2 t : Vec F S128x128 .f32) (ix2 cc o) = m ((c : Thread nD τ).loc main_arg2) (ix2 cc o) := by
  obtain ⟨h0, h1⟩ := idxc2 t
  unfold iblk
  rw [View.read_apply]
  show V m c main_arg2 _ = _
  rw [V_main_arg2]
  refine congrArg _ (funext fun a => Fin.ext ?_)
  match a with
  | ⟨0, _⟩ => show win0_2.index t 0 * 128 + 1 * cc.val = cc.val; rw [h0]; omega
  | ⟨1, _⟩ => show win0_2.index t 1 * 128 + 1 * o.val = o.val; rw [h1]; omega

/-- The `gamma` column of every point. -/
theorem gamma_apply (c : Dev nD) (t : Fin cfg0.N) (o : Fin 128) :
    (iblk m c 3 t : Vec F S128x1 .f32) (ix2 o (0 : Fin 1)) = m ((c : Thread nD τ).loc main_arg3) (ix1 o) := by
  have e : (V m c main_v0 : S128x1.Idx → Elt F .f32)
      = shapeCast S128x1 (m ((c : Thread nD τ).loc main_arg3)) shapeCasts_S128_S128x1 := by
    dsimp only [Gen.V, Gen.hostOps0]; after_results; rfl
  unfold iblk
  rw [View.read_apply]
  show V m c main_v0 _ = _
  rw [e]
  refine shapeCast_apply (s := S128) (t := S128x1) _ _ _ (ix1 o) ?_
  show (S128.rowMajor (ix1 o)).val = (S128x1.rowMajor _).val
  rw [Shape.rowMajor_val_two, Shape.rowMajor_val_one]
  have h0 : (((cfg0.win 3).blk t).view.emb (ix2 o (0 : Fin 1)) 0).val = o.val := by
    show win0_3.index t 0 * 128 + 1 * o.val = o.val
    rw [(idxc3 t).1]; omega
  have h1 : (((cfg0.win 3).blk t).view.emb (ix2 o (0 : Fin 1)) 1).val = 0 := by
    show win0_3.index t 1 * 1 + 1 * (0 : Fin 1).val = 0
    rw [(idxc3 t).2]; rfl
  show o.val = (((cfg0.win 3).blk t).view.emb (ix2 o (0 : Fin 1)) 0).val * 1 + (((cfg0.win 3).blk t).view.emb (ix2 o (0 : Fin 1)) 1).val
  rw [h0, h1]; omega

/-- The `beta` column of every point. -/
theorem beta_apply (c : Dev nD) (t : Fin cfg0.N) (o : Fin 128) :
    (iblk m c 4 t : Vec F S128x1 .f32) (ix2 o (0 : Fin 1)) = m ((c : Thread nD τ).loc main_arg4) (ix1 o) := by
  have e : (V m c main_v1 : S128x1.Idx → Elt F .f32)
      = shapeCast S128x1 (m ((c : Thread nD τ).loc main_arg4)) shapeCasts_S128_S128x1 := by
    dsimp only [Gen.V, Gen.hostOps0]; after_results; rfl
  unfold iblk
  rw [View.read_apply]
  show V m c main_v1 _ = _
  rw [e]
  refine shapeCast_apply (s := S128) (t := S128x1) _ _ _ (ix1 o) ?_
  show (S128.rowMajor (ix1 o)).val = (S128x1.rowMajor _).val
  rw [Shape.rowMajor_val_two, Shape.rowMajor_val_one]
  have h0 : (((cfg0.win 4).blk t).view.emb (ix2 o (0 : Fin 1)) 0).val = o.val := by
    show win0_4.index t 0 * 128 + 1 * o.val = o.val
    rw [(idxc4 t).1]; omega
  have h1 : (((cfg0.win 4).blk t).view.emb (ix2 o (0 : Fin 1)) 1).val = 0 := by
    show win0_4.index t 1 * 1 + 1 * (0 : Fin 1).val = 0
    rw [(idxc4 t).2]; rfl
  show o.val = (((cfg0.win 4).blk t).view.emb (ix2 o (0 : Fin 1)) 0).val * 1 + (((cfg0.win 4).blk t).view.emb (ix2 o (0 : Fin 1)) 1).val
  rw [h0, h1]; omega

/-- The running-mean column of every point. -/
theorem mean_apply (c : Dev nD) (t : Fin cfg0.N) (o : Fin 128) :
    (iblk m c 5 t : Vec F S128x1 .f32) (ix2 o (0 : Fin 1)) = m ((c : Thread nD τ).loc main_arg5) (ix1 o) := by
  have e : (V m c main_v2 : S128x1.Idx → Elt F .f32)
      = shapeCast S128x1 (m ((c : Thread nD τ).loc main_arg5)) shapeCasts_S128_S128x1 := by
    dsimp only [Gen.V, Gen.hostOps0]; after_results; rfl
  unfold iblk
  rw [View.read_apply]
  show V m c main_v2 _ = _
  rw [e]
  refine shapeCast_apply (s := S128) (t := S128x1) _ _ _ (ix1 o) ?_
  show (S128.rowMajor (ix1 o)).val = (S128x1.rowMajor _).val
  rw [Shape.rowMajor_val_two, Shape.rowMajor_val_one]
  have h0 : (((cfg0.win 5).blk t).view.emb (ix2 o (0 : Fin 1)) 0).val = o.val := by
    show win0_5.index t 0 * 128 + 1 * o.val = o.val
    rw [(idxc5 t).1]; omega
  have h1 : (((cfg0.win 5).blk t).view.emb (ix2 o (0 : Fin 1)) 1).val = 0 := by
    show win0_5.index t 1 * 1 + 1 * (0 : Fin 1).val = 0
    rw [(idxc5 t).2]; rfl
  show o.val = (((cfg0.win 5).blk t).view.emb (ix2 o (0 : Fin 1)) 0).val * 1 + (((cfg0.win 5).blk t).view.emb (ix2 o (0 : Fin 1)) 1).val
  rw [h0, h1]; omega

/-- The running-variance column of every point. -/
theorem var_apply (c : Dev nD) (t : Fin cfg0.N) (o : Fin 128) :
    (iblk m c 6 t : Vec F S128x1 .f32) (ix2 o (0 : Fin 1)) = m ((c : Thread nD τ).loc main_arg6) (ix1 o) := by
  have e : (V m c main_v3 : S128x1.Idx → Elt F .f32)
      = shapeCast S128x1 (m ((c : Thread nD τ).loc main_arg6)) shapeCasts_S128_S128x1 := by
    dsimp only [Gen.V, Gen.hostOps0]; after_results; rfl
  unfold iblk
  rw [View.read_apply]
  show V m c main_v3 _ = _
  rw [e]
  refine shapeCast_apply (s := S128) (t := S128x1) _ _ _ (ix1 o) ?_
  show (S128.rowMajor (ix1 o)).val = (S128x1.rowMajor _).val
  rw [Shape.rowMajor_val_two, Shape.rowMajor_val_one]
  have h0 : (((cfg0.win 6).blk t).view.emb (ix2 o (0 : Fin 1)) 0).val = o.val := by
    show win0_6.index t 0 * 128 + 1 * o.val = o.val
    rw [(idxc6 t).1]; omega
  have h1 : (((cfg0.win 6).blk t).view.emb (ix2 o (0 : Fin 1)) 1).val = 0 := by
    show win0_6.index t 1 * 1 + 1 * (0 : Fin 1).val = 0
    rw [(idxc6 t).2]; rfl
  show o.val = (((cfg0.win 6).blk t).view.emb (ix2 o (0 : Fin 1)) 0).val * 1 + (((cfg0.win 6).blk t).view.emb (ix2 o (0 : Fin 1)) 1).val
  rw [h0, h1]; omega

end Cert.KernelIdeal.Blocks

end
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.Payload.lean ====
/-
  The kernel body's arithmetic, read at one element over the extended reals.

  A block of the input or of the target is a `[1, 128, N]` array (channels × positions).  `bunit x c j` is entry `c`
  of its column `j` scaled to unit length, the length clamped below by a small positive constant.  With `u` the unit
  target columns of the batch (a `[128, 4096]` array), the weight of input position `r` of the tile against target
  position `m` is `e^{⟨unit x(·,r), u(·,m)⟩ − shift}`; a tile adds `Σ_r weight(r,m)` to the running denominator and
  `Σ_r x[c,r]·weight(r,m)` to the running numerator; the result block is the numerator over the denominator,
  projected by the weight matrix and passed through the rectifier and the normalisation.
-/
import proofs.«154519_j17824114278455_2_alg».proof.Proof.Gen.KernelIdeal.Skeleton
import proofs.«154519_j17824114278455_2_alg».proof.Proof.Spec
import proofs.«154519_j17824114278455_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The clamped length of column `j` of a `[1, 128, N]` block. -/
def blen {N : ℕ} (x : (⟨3, ![1, 128, N]⟩ : Shape).Idx → EReal) (j : Fin N) : EReal :=
  max (Ideal.sqrt (∑ c : Fin 128, x (ix3 (0 : Fin 1) c j) * x (ix3 (0 : Fin 1) c j))) Cert.Attn.floor

/-- Entry `c` of the unit column `j` of a `[1, 128, N]` block. -/
def bunit {N : ℕ} (x : (⟨3, ![1, 128, N]⟩ : Shape).Idx → EReal) (c : Fin 128) (j : Fin N) : EReal :=
  Ideal.div (x (ix3 (0 : Fin 1) c j)) (blen x j)

/-- Row `k` put back above column `j` of an `[a, N]` array is the index `(k, j)`. -/
private theorem lift_rows {a N : ℕ} (h : (⟨2, ![a, N]⟩ : Shape).Reduces [0] (⟨1, ![N]⟩ : Shape)) (j : Fin N)
    (k : Fin ((⟨2, ![a, N]⟩ : Shape).size 0)) : h.lift (ix1 j) k = ix2 (⟨k.val, k.isLt⟩ : Fin a) j := by
  funext c; apply Fin.ext
  fin_cases c <;> rfl

/-- The sum down a column of an `[a, N]` array: the reduction over the rows, read at column `j`. -/
private theorem colSum_apply {a N : ℕ} (y : FVec Ideal ⟨2, ![a, N]⟩ .f32)
    (h : (⟨2, ![a, N]⟩ : Shape).Reduces [0] (⟨1, ![N]⟩ : Shape)) (hφ : FKind.Formats .f32)
    (hacc : (0x00000000#32 : BitVec 32) = FKind.add.neutral .f32 hφ) (j : Fin N) :
    multiReduction (F := Ideal) .add [0] ⟨1, ![N]⟩ y 0x00000000#32 h hφ hacc (ix1 j) = ∑ k : Fin a, y (ix2 k j) := by
  refine (Ideal.multiReduction_add_single y 0x00000000#32 h hφ hacc (ix1 j)).trans ?_
  exact Finset.sum_congr rfl fun k _ => congrArg y (lift_rows h j k)

/-- The unit-column computation on an `[128, N]` array `y`, read at `(c, j)`: the entry over the clamped length of
    its column. -/
private theorem unitOf_apply {N : ℕ} (y : FVec Ideal ⟨2, ![128, N]⟩ .f32)
    (hr : (⟨2, ![128, N]⟩ : Shape).Reduces [0] (⟨1, ![N]⟩ : Shape)) (hφ : FKind.Formats .f32)
    (hacc : (0x00000000#32 : BitVec 32) = FKind.add.neutral .f32 hφ)
    (hc : (⟨1, ![N]⟩ : Shape).ShapeCasts ⟨2, ![1, N]⟩) (hb : (⟨2, ![1, N]⟩ : Shape).Broadcasts ⟨2, ![128, N]⟩)
    (c : Fin 128) (j : Fin N) :
    divf y (broadcastTo ⟨2, ![128, N]⟩
        (maximumf (sqrt (shapeCast ⟨2, ![1, N]⟩
            (multiReduction (F := Ideal) .add [0] ⟨1, ![N]⟩ (mulf y y) 0x00000000#32 hr hφ hacc) hc))
          (broadcast ⟨2, ![1, N]⟩ (Scalar.ofBits (F := Ideal) .f32 0x2B8CBCCC#32))) hb) (ix2 c j)
      = Ideal.div (y (ix2 c j)) (max (Ideal.sqrt (∑ k : Fin 128, y (ix2 k j) * y (ix2 k j))) Cert.Attn.floor) := by
  rw [divf_apply, broadcastTo_1b_ab_apply, maximumf_apply, broadcast_apply]
  show Ideal.div _ (max (Ideal.sqrt (shapeCast ⟨2, ![1, N]⟩ _ hc (ix2 0 j))) _) = _
  rw [shapeCast_a_1a_apply, colSum_apply]
  rfl

/-! The operand indices of the two contractions, one coordinate at a time. -/

private theorem dotScore_lhs0 (i : S256x4096.Idx) (q : dot_S128x256_S128x4096_S256x4096_0_0_1_1_n_n.contr.Idx) :
    (dot_S128x256_S128x4096_S256x4096_0_0_1_1_n_n.lhsIdx i q 0).val = (q ⟨0, by decide⟩).val :=
  dot_S128x256_S128x4096_S256x4096_0_0_1_1_n_n.lhsIdx_val_of_single rfl i q
private theorem dotScore_lhs1 (i : S256x4096.Idx) (q : dot_S128x256_S128x4096_S256x4096_0_0_1_1_n_n.contr.Idx) :
    (dot_S128x256_S128x4096_S256x4096_0_0_1_1_n_n.lhsIdx i q 1).val = (i 0).val := by
  unfold DotDims.lhsIdx
  rw [dif_neg (show ¬(1 : Fin S128x256.rank) ∈ dot_S128x256_S128x4096_S256x4096_0_0_1_1_n_n.lhsBatch by decide),
    dif_pos (show (1 : Fin S128x256.rank) ∈ dot_S128x256_S128x4096_S256x4096_0_0_1_1_n_n.lhsNonContracting by decide)]
  rfl
private theorem dotScore_rhs0 (i : S256x4096.Idx) (q : dot_S128x256_S128x4096_S256x4096_0_0_1_1_n_n.contr.Idx) :
    (dot_S128x256_S128x4096_S256x4096_0_0_1_1_n_n.rhsIdx i q 0).val = (q ⟨0, by decide⟩).val :=
  dot_S128x256_S128x4096_S256x4096_0_0_1_1_n_n.rhsIdx_val_of_single rfl i q
private theorem dotScore_rhs1 (i : S256x4096.Idx) (q : dot_S128x256_S128x4096_S256x4096_0_0_1_1_n_n.contr.Idx) :
    (dot_S128x256_S128x4096_S256x4096_0_0_1_1_n_n.rhsIdx i q 1).val = (i 1).val := by
  unfold DotDims.rhsIdx
  rw [dif_neg (show ¬(1 : Fin S128x4096.rank) ∈ dot_S128x256_S128x4096_S256x4096_0_0_1_1_n_n.rhsBatch by decide),
    dif_pos (show (1 : Fin S128x4096.rank) ∈ dot_S128x256_S128x4096_S256x4096_0_0_1_1_n_n.rhsNonContracting by decide)]
  rfl

/-- The score contraction: a `[128, 256]` by `[128, 4096]` product over the shared first axis into a zero
    accumulator is, at `(r, m)`, the sum over `c` of `lhs (c, r) · rhs (c, m)`. -/
private theorem dotScore_apply (lhs : FVec Ideal S128x256 .bf16) (rhs : FVec Ideal S128x4096 .bf16) (r : Fin 256)
    (m : Fin 4096) :
    matmul (F := Ideal) dot_S128x256_S128x4096_S256x4096_0_0_1_1_n_n none lhs rhs (constant (F := Ideal) S256x4096 .f32 0x00000000#32) (ix2 r m)
      = ∑ c : Fin 128, lhs (ix2 c r) * rhs (ix2 c m) := by
  refine (Ideal.matmul_constant_zero_apply dot_S128x256_S128x4096_S256x4096_0_0_1_1_n_n none lhs rhs (ix2 r m)).trans ?_
  rw [← Equiv.sum_comp (contrEquiv1 dot_S128x256_S128x4096_S256x4096_0_0_1_1_n_n 128 rfl rfl).symm]
  refine Finset.sum_congr rfl fun k _ => ?_
  have hk := contrEquiv1_symm_val dot_S128x256_S128x4096_S256x4096_0_0_1_1_n_n 128 rfl rfl k
  have el : dot_S128x256_S128x4096_S256x4096_0_0_1_1_n_n.lhsIdx (ix2 r m) ((contrEquiv1 dot_S128x256_S128x4096_S256x4096_0_0_1_1_n_n 128 rfl rfl).symm k) = ix2 k r :=
    funext fun a => Fin.ext (by
      match a with
      | ⟨0, _⟩ => exact (dotScore_lhs0 _ _).trans hk
      | ⟨1, _⟩ => exact dotScore_lhs1 _ _)
  have er : dot_S128x256_S128x4096_S256x4096_0_0_1_1_n_n.rhsIdx (ix2 r m) ((contrEquiv1 dot_S128x256_S128x4096_S256x4096_0_0_1_1_n_n 128 rfl rfl).symm k) = ix2 k m :=
    funext fun a => Fin.ext (by
      match a with
      | ⟨0, _⟩ => exact (dotScore_rhs0 _ _).trans hk
      | ⟨1, _⟩ => exact dotScore_rhs1 _ _)
  rw [el, er]

private theorem dotNumer_lhs0 (i : S128x4096.Idx) (q : dot_S128x256_S256x4096_S128x4096_1_0_0_1_n_n.contr.Idx) :
    (dot_S128x256_S256x4096_S128x4096_1_0_0_1_n_n.lhsIdx i q 0).val = (i 0).val := by
  unfold DotDims.lhsIdx
  rw [dif_neg (show ¬(0 : Fin S128x256.rank) ∈ dot_S128x256_S256x4096_S128x4096_1_0_0_1_n_n.lhsBatch by decide),
    dif_pos (show (0 : Fin S128x256.rank) ∈ dot_S128x256_S256x4096_S128x4096_1_0_0_1_n_n.lhsNonContracting by decide)]
  rfl
private theorem dotNumer_lhs1 (i : S128x4096.Idx) (q : dot_S128x256_S256x4096_S128x4096_1_0_0_1_n_n.contr.Idx) :
    (dot_S128x256_S256x4096_S128x4096_1_0_0_1_n_n.lhsIdx i q 1).val = (q ⟨0, by decide⟩).val :=
  dot_S128x256_S256x4096_S128x4096_1_0_0_1_n_n.lhsIdx_val_of_single rfl i q
private theorem dotNumer_rhs0 (i : S128x4096.Idx) (q : dot_S128x256_S256x4096_S128x4096_1_0_0_1_n_n.contr.Idx) :
    (dot_S128x256_S256x4096_S128x4096_1_0_0_1_n_n.rhsIdx i q 0).val = (q ⟨0, by decide⟩).val :=
  dot_S128x256_S256x4096_S128x4096_1_0_0_1_n_n.rhsIdx_val_of_single rfl i q
private theorem dotNumer_rhs1 (i : S128x4096.Idx) (q : dot_S128x256_S256x4096_S128x4096_1_0_0_1_n_n.contr.Idx) :
    (dot_S128x256_S256x4096_S128x4096_1_0_0_1_n_n.rhsIdx i q 1).val = (i 1).val := by
  unfold DotDims.rhsIdx
  rw [dif_neg (show ¬(1 : Fin S256x4096.rank) ∈ dot_S128x256_S256x4096_S128x4096_1_0_0_1_n_n.rhsBatch by decide),
    dif_pos (show (1 : Fin S256x4096.rank) ∈ dot_S128x256_S256x4096_S128x4096_1_0_0_1_n_n.rhsNonContracting by decide)]
  rfl

/-- The numerator contraction: a `[128, 256]` by `[256, 4096]` product into a zero accumulator is, at `(c, m)`, the
    sum over `r` of `lhs (c, r) · rhs (r, m)`. -/
private theorem dotNumer_apply (lhs : FVec Ideal S128x256 .bf16) (rhs : FVec Ideal S256x4096 .bf16) (c : Fin 128)
    (m : Fin 4096) :
    matmul (F := Ideal) dot_S128x256_S256x4096_S128x4096_1_0_0_1_n_n none lhs rhs (constant (F := Ideal) S128x4096 .f32 0x00000000#32) (ix2 c m)
      = ∑ r : Fin 256, lhs (ix2 c r) * rhs (ix2 r m) := by
  refine (Ideal.matmul_constant_zero_apply dot_S128x256_S256x4096_S128x4096_1_0_0_1_n_n none lhs rhs (ix2 c m)).trans ?_
  rw [← Equiv.sum_comp (contrEquiv1 dot_S128x256_S256x4096_S128x4096_1_0_0_1_n_n 256 rfl rfl).symm]
  refine Finset.sum_congr rfl fun k _ => ?_
  have hk := contrEquiv1_symm_val dot_S128x256_S256x4096_S128x4096_1_0_0_1_n_n 256 rfl rfl k
  have el : dot_S128x256_S256x4096_S128x4096_1_0_0_1_n_n.lhsIdx (ix2 c m) ((contrEquiv1 dot_S128x256_S256x4096_S128x4096_1_0_0_1_n_n 256 rfl rfl).symm k) = ix2 c k :=
    funext fun a => Fin.ext (by
      match a with
      | ⟨0, _⟩ => exact dotNumer_lhs0 _ _
      | ⟨1, _⟩ => exact (dotNumer_lhs1 _ _).trans hk)
  have er : dot_S128x256_S256x4096_S128x4096_1_0_0_1_n_n.rhsIdx (ix2 c m) ((contrEquiv1 dot_S128x256_S256x4096_S128x4096_1_0_0_1_n_n 256 rfl rfl).symm k) = ix2 k m :=
    funext fun a => Fin.ext (by
      match a with
      | ⟨0, _⟩ => exact (dotNumer_rhs0 _ _).trans hk
      | ⟨1, _⟩ => exact dotNumer_rhs1 _ _)
  rw [el, er]

/-- The stored target block is its unit columns. -/
theorem unitCols_apply (x0 : Vec Ideal S1x128x4096 .f32) (cc : Fin 128) (mm : Fin 4096) :
    k0_pay2 (F := Ideal) x0 (ix2 cc mm) = bunit x0 cc mm := by
  unfold k0_pay2
  simp only [shapeCast_self, truncf_apply]
  refine (unitOf_apply (shapeCast S128x4096 x0 shapeCasts_S1x128x4096_S128x4096) _ _ _ _ _ cc mm).trans ?_
  unfold bunit blen
  simp only [shapeCast_1ab_ab_apply]

/-- The reset row of the denominator is zero. -/
theorem zeroRow_apply (z : Fin 1) (mm : Fin 4096) : k0_pay3 (F := Ideal) (ix2 z mm) = 0 := by
  unfold k0_pay3
  simp only [shapeCast_self, broadcast_apply]
  exact Ideal.ofBits_zero_f32

/-- The reset block of the numerator is zero. -/
theorem zeroBlock_apply (cc : Fin 128) (mm : Fin 4096) : k0_pay4 (F := Ideal) (ix2 cc mm) = 0 := by
  unfold k0_pay4
  simp only [shapeCast_self, broadcast_apply]
  exact Ideal.ofBits_zero_f32

/-- The weight of the tile's input position `r` against target position `mm`. -/
theorem weight_apply (x1 : Vec Ideal S1x128x256 .f32) (u : Vec Ideal S128x4096 .bf16) (r : Fin 256) (mm : Fin 4096) :
    k0_pay6 (F := Ideal) x1 u (ix2 r mm)
      = Ideal.exp ((∑ c : Fin 128, bunit x1 c r * u (ix2 c mm)) - Cert.Attn.shift) := by
  unfold k0_pay6
  show Ideal.exp (matmul (F := Ideal) dot_S128x256_S128x4096_S256x4096_0_0_1_1_n_n none _ u _ (ix2 r mm) - Cert.Attn.shift) = _
  rw [dotScore_apply]
  refine congrArg (fun t => Ideal.exp (t - Cert.Attn.shift)) (Finset.sum_congr rfl fun c _ => ?_)
  refine congrArg (· * u (ix2 c mm)) ?_
  rw [truncf_apply]
  refine (unitOf_apply (k0_pay5 (F := Ideal) x1) _ _ _ _ _ c r).trans ?_
  unfold bunit blen k0_pay5
  simp only [shapeCast_1ab_ab_apply]

/-- A tile adds the sum of its weights to the denominator. -/
theorem denom_apply (x1 : Vec Ideal S1x128x256 .f32) (u : Vec Ideal S128x4096 .bf16) (l : Vec Ideal S1x4096 .f32)
    (z : Fin 1) (mm : Fin 4096) :
    k0_pay7 (F := Ideal) x1 u l (ix2 z mm)
      = l (ix2 z mm) + ∑ r : Fin 256, k0_pay6 (F := Ideal) x1 u (ix2 r mm) := by
  unfold k0_pay7
  simp only [shapeCast_self]
  rw [addf_apply, shapeCast_a_1a_apply]
  refine congrArg (l (ix2 z mm) + ·) ?_
  exact colSum_apply (k0_pay6 (F := Ideal) x1 u) _ _ _ mm

/-- A tile adds its weighted input columns to the numerator. -/
theorem numer_apply (x1 : Vec Ideal S1x128x256 .f32) (u : Vec Ideal S128x4096 .bf16) (s : Vec Ideal S128x4096 .f32)
    (cc : Fin 128) (mm : Fin 4096) :
    k0_pay8 (F := Ideal) x1 u s (ix2 cc mm)
      = s (ix2 cc mm) + ∑ r : Fin 256, x1 (ix3 (0 : Fin 1) cc r) * k0_pay6 (F := Ideal) x1 u (ix2 r mm) := by
  unfold k0_pay8
  simp only [shapeCast_self]
  rw [addf_apply, dotNumer_apply]
  refine congrArg (s (ix2 cc mm) + ·) (Finset.sum_congr rfl fun r _ => ?_)
  rw [truncf_apply, truncf_apply]
  refine congrArg (· * k0_pay6 (F := Ideal) x1 u (ix2 r mm)) ?_
  unfold k0_pay5
  simp only [shapeCast_1ab_ab_apply]

end Cert.KernelIdeal.Payload

end
-- ==== Proof.Carry.lean ====
/-
  What the three carried buffers hold after each grid point, in closed form.

  Point `t` is batch `b = t / 16`, tile `j = t % 16`.  After it, the buffer `U` holds the unit target columns of the
  batch; the denominator row holds `Σ_{tiles i ≤ j} Σ_{r < 256} w(m, 256 i + r)` and the numerator block
  `Σ_{tiles i ≤ j} Σ_{r < 256} X[b,c,256 i + r] · w(m, 256 i + r)`, where `w(m, n) = e^{score(m,n) − shift}` is the weight
  of input position `n` against target position `m`.  The proof is an induction over the points: the first tile of a
  batch starts from zero, every other tile adds its share to what the tile before left.
-/
import proofs.«154519_j17824114278455_2_alg».proof.Proof.Gen.KernelIdeal.Frame
import proofs.«154519_j17824114278455_2_alg».proof.Proof.Spec
import proofs.«154519_j17824114278455_2_alg».proof.Proof.TileSum
import proofs.«154519_j17824114278455_2_alg».proof.Proof.Pieces
import proofs.«154519_j17824114278455_2_alg».proof.Proof.Blocks
import proofs.«154519_j17824114278455_2_alg».proof.Proof.Payload

noncomputable section

namespace Cert.KernelIdeal.Carry

open Cert.KernelIdeal Cert.KernelIdeal.Gen Idealize.ShloMosaic Idealize.ShloMosaic.TcCoe Idealize.SL.Sem
open Idealize.ShloMosaic.ValueIdx Cert.Attn Cert.TileSum
open scoped BigOperators

/-! ## One tile's step, over variables -/

section Step

variable (X T : A3.Idx → EReal) (b : Fin 8)

/-- The weight of input position `n` against target position `mm`. -/
def wt (mm n : Fin 4096) : EReal := Ideal.exp (score X T b mm n - shift)

/-- A target block that is batch `b` of `T` stores the unit columns of `T`. -/
theorem unit_of_block (x0 : Vec Ideal S1x128x4096 .f32)
    (hx0 : ∀ cc mm, x0 (ix3 (0 : Fin 1) cc mm) = T (ix3 b cc mm)) (cc : Fin 128) (mm : Fin 4096) :
    k0_pay2 (F := Ideal) x0 (ix2 cc mm) = unit T b cc mm := by
  rw [Payload.unitCols_apply]
  unfold Payload.bunit Payload.blen unit len
  simp only [hx0]

/-- An input block that is tile `j` of batch `b` of `X` has the unit columns of `X` at the tile's positions. -/
theorem bunit_of_block (j : ℕ) (x1 : Vec Ideal S1x128x256 .f32)
    (hx1 : ∀ cc r, x1 (ix3 (0 : Fin 1) cc r) = X (ix3 b cc (tidx j r))) (cc : Fin 128) (r : Fin 256) :
    Payload.bunit x1 cc r = unit X b cc (tidx j r) := by
  unfold Payload.bunit Payload.blen unit len
  simp only [hx1]

/-- The weights of a tile. -/
theorem weight_of_block (j : ℕ) (x1 : Vec Ideal S1x128x256 .f32) (u : Vec Ideal S128x4096 .bf16)
    (hx1 : ∀ cc r, x1 (ix3 (0 : Fin 1) cc r) = X (ix3 b cc (tidx j r)))
    (hu : ∀ cc mm, u (ix2 cc mm) = unit T b cc mm) (r : Fin 256) (mm : Fin 4096) :
    k0_pay6 (F := Ideal) x1 u (ix2 r mm) = wt X T b mm (tidx j r) := by
  rw [Payload.weight_apply]
  unfold wt score
  refine congrArg (fun s => Ideal.exp (s - shift)) (Finset.sum_congr rfl fun cc _ => ?_)
  rw [bunit_of_block X b j x1 hx1, hu, mul_comm]

/-- A tile adds its weights to the denominator row. -/
theorem denom_of_block (j : ℕ) (x1 : Vec Ideal S1x128x256 .f32) (u : Vec Ideal S128x4096 .bf16)
    (l : Vec Ideal S1x4096 .f32)
    (hx1 : ∀ cc r, x1 (ix3 (0 : Fin 1) cc r) = X (ix3 b cc (tidx j r)))
    (hu : ∀ cc mm, u (ix2 cc mm) = unit T b cc mm) (z : Fin 1) (mm : Fin 4096) :
    k0_pay7 (F := Ideal) x1 u l (ix2 z mm) = l (ix2 z mm) + tile (fun n => wt X T b mm n) j := by
  rw [Payload.denom_apply]
  unfold tile
  exact congrArg (l (ix2 z mm) + ·) (Finset.sum_congr rfl fun r _ => weight_of_block X T b j x1 u hx1 hu r mm)

/-- A tile adds its weighted input columns to the numerator block. -/
theorem numer_of_block (j : ℕ) (x1 : Vec Ideal S1x128x256 .f32) (u : Vec Ideal S128x4096 .bf16)
    (s : Vec Ideal S128x4096 .f32)
    (hx1 : ∀ cc r, x1 (ix3 (0 : Fin 1) cc r) = X (ix3 b cc (tidx j r)))
    (hu : ∀ cc mm, u (ix2 cc mm) = unit T b cc mm) (cc : Fin 128) (mm : Fin 4096) :
    k0_pay8 (F := Ideal) x1 u s (ix2 cc mm)
      = s (ix2 cc mm) + tile (fun n => X (ix3 b cc n) * wt X T b mm n) j := by
  rw [Payload.numer_apply]
  unfold tile
  refine congrArg (s (ix2 cc mm) + ·) (Finset.sum_congr rfl fun r _ => ?_)
  rw [hx1, weight_of_block X T b j x1 u hx1 hu r mm]

end Step

/-! ## The invariant over the grid -/

variable (m : (ℓ : Loc nD τ sig) → Buf (Elt Ideal) ℓ)

/-- The input array and the target array of core `c`. -/
abbrev inp (c : Dev nD) : A3.Idx → EReal := m ((c : Thread nD τ).loc main_arg0)
abbrev tgt (c : Dev nD) : A3.Idx → EReal := m ((c : Thread nD τ).loc main_arg1)

/-- The tile's positions: the block lemma's position is the tile sum's index. -/
theorem pos_eq (t : Fin cfg0.N) (r : Fin 256) : Blocks.pos t r = tidx (t.val % 16) r :=
  Fin.ext (by rw [tidx_val _ (Nat.mod_lt _ (by norm_num)) r]; rfl)

theorem input_block (c : Dev nD) (t : Fin cfg0.N) (cc : Fin 128) (r : Fin 256) :
    (iblk m c 1 t : Vec Ideal S1x128x256 .f32) (ix3 (0 : Fin 1) cc r)
      = inp m c (ix3 (Blocks.batch t) cc (tidx (t.val % 16) r)) := by
  rw [Blocks.input_apply, pos_eq]

/-- What the carried buffers hold after point `t`. -/
structure Holds (c : Dev nD) (t : Fin cfg0.N) : Prop where
  units : ∀ cc mm, (outsAt0 m c t.val t.isLt).2.1 (ix2 cc mm) = unit (tgt m c) (Blocks.batch t) cc mm
  denom : ∀ (z : Fin 1) mm, (outsAt0 m c t.val t.isLt).2.2.1 (ix2 z mm)
      = ∑ i ∈ Finset.range (t.val % 16 + 1), tile (fun n => wt (inp m c) (tgt m c) (Blocks.batch t) mm n) i
  numer : ∀ cc mm, (outsAt0 m c t.val t.isLt).2.2.2 (ix2 cc mm)
      = ∑ i ∈ Finset.range (t.val % 16 + 1),
          tile (fun n => inp m c (ix3 (Blocks.batch t) cc n) * wt (inp m c) (tgt m c) (Blocks.batch t) mm n) i

/-- The first tile of a batch. -/
theorem holds_first (c : Dev nD) (t : Fin cfg0.N) (h0 : t.val % 16 = 0) : Holds m c t := by
  have h1 : ¬t.val % 16 = 15 := by omega
  have hU : ∀ cc mm, (k0_pay2 (F := Ideal) (iblk m c 0 t)) (ix2 cc mm) = unit (tgt m c) (Blocks.batch t) cc mm :=
    unit_of_block (tgt m c) (Blocks.batch t) (iblk m c 0 t) (fun cc mm => Blocks.target_apply m c t cc mm)
  have hX := input_block m c t
  refine ⟨fun cc mm => ?_, fun z mm => ?_, fun cc mm => ?_⟩
  · rw [outsAt0_A m c t h0 h1]
    dsimp only
    refine (congrFun (Pieces.first_U c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 cc mm)).trans ?_
    exact hU cc mm
  · rw [outsAt0_A m c t h0 h1]
    dsimp only
    refine (congrFun (Pieces.first_L c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 z mm)).trans ?_
    rw [denom_of_block (inp m c) (tgt m c) (Blocks.batch t) (t.val % 16) (iblk m c 1 t) _ _ hX hU z mm,
      Payload.zeroRow_apply, zero_add, h0, Finset.sum_range_one]
  · rw [outsAt0_A m c t h0 h1]
    dsimp only
    refine (congrFun (Pieces.first_S c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 cc mm)).trans ?_
    rw [numer_of_block (inp m c) (tgt m c) (Blocks.batch t) (t.val % 16) (iblk m c 1 t) _ _ hX hU cc mm,
      Payload.zeroBlock_apply, zero_add, h0, Finset.sum_range_one]

/-- The point before `t`. -/
abbrev before (t : Fin cfg0.N) : Fin cfg0.N := ⟨t.val - 1, Nat.lt_of_le_of_lt (Nat.sub_le _ _) t.isLt⟩

/-- Every other tile of a batch: the tile's share added to what the tile before left. -/
theorem holds_next (c : Dev nD) (t : Fin cfg0.N) (h0 : ¬t.val % 16 = 0) (prev : Holds m c (before t)) : Holds m c t := by
  have hb : Blocks.batch (before t) = Blocks.batch t := Fin.ext (by show (t.val - 1) / 16 = t.val / 16; omega)
  have hk : t.val % 16 = (before t).val % 16 + 1 := by show t.val % 16 = (t.val - 1) % 16 + 1; omega
  have hU : ∀ cc mm, (outsAt0 m c (t.val - 1) (Nat.lt_of_le_of_lt (Nat.sub_le _ _) t.isLt)).2.1 (ix2 cc mm)
      = unit (tgt m c) (Blocks.batch t) cc mm := fun cc mm => (prev.units cc mm).trans (by rw [hb])
  have hX := input_block m c t
  by_cases h1 : t.val % 16 = 15
  ·
    refine ⟨fun cc mm => ?_, fun z mm => ?_, fun cc mm => ?_⟩
    · rw [outsAt0_C m c t h0 h1]
      dsimp only
      exact hU cc mm
    · rw [outsAt0_C m c t h0 h1]
      dsimp only
      refine (congrFun (Pieces.last_L c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 z mm)).trans ?_
      rw [denom_of_block (inp m c) (tgt m c) (Blocks.batch t) (t.val % 16) (iblk m c 1 t) _ _ hX hU z mm]
      refine (congrArg (· + _) ((prev.denom z mm).trans (by rw [hb]))).trans ?_
      rw [hk]
      exact (Finset.sum_range_succ _ _).symm
    · rw [outsAt0_C m c t h0 h1]
      dsimp only
      refine (congrFun (Pieces.last_S c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc mm)).trans ?_
      rw [numer_of_block (inp m c) (tgt m c) (Blocks.batch t) (t.val % 16) (iblk m c 1 t) _ _ hX hU cc mm]
      refine (congrArg (· + _) ((prev.numer cc mm).trans (by rw [hb]))).trans ?_
      rw [hk]
      exact (Finset.sum_range_succ _ _).symm
  ·
    refine ⟨fun cc mm => ?_, fun z mm => ?_, fun cc mm => ?_⟩
    · rw [outsAt0_B m c t h0 h1]
      dsimp only
      exact hU cc mm
    · rw [outsAt0_B m c t h0 h1]
      dsimp only
      refine (congrFun (Pieces.mid_L c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 z mm)).trans ?_
      rw [denom_of_block (inp m c) (tgt m c) (Blocks.batch t) (t.val % 16) (iblk m c 1 t) _ _ hX hU z mm]
      refine (congrArg (· + _) ((prev.denom z mm).trans (by rw [hb]))).trans ?_
      rw [hk]
      exact (Finset.sum_range_succ _ _).symm
    · rw [outsAt0_B m c t h0 h1]
      dsimp only
      refine (congrFun (Pieces.mid_S c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc mm)).trans ?_
      rw [numer_of_block (inp m c) (tgt m c) (Blocks.batch t) (t.val % 16) (iblk m c 1 t) _ _ hX hU cc mm]
      refine (congrArg (· + _) ((prev.numer cc mm).trans (by rw [hb]))).trans ?_
      rw [hk]
      exact (Finset.sum_range_succ _ _).symm

/-- The invariant at every point, by induction over the points. -/
theorem holds (c : Dev nD) : ∀ (n : ℕ) (h : n < cfg0.N), Holds m c ⟨n, h⟩
  | 0, h => holds_first m c ⟨0, h⟩ rfl
  | n + 1, h => by
    by_cases h0 : (n + 1) % 16 = 0
    · exact holds_first m c ⟨n + 1, h⟩ h0
    · exact holds_next m c ⟨n + 1, h⟩ h0 (holds c n (Nat.lt_of_succ_lt h))

/-- At the last tile of a batch the result block is computed from the numerator and denominator the tile leaves. -/
theorem out_last (c : Dev nD) (t : Fin cfg0.N) (h1 : t.val % 16 = 15) :
    (outsAt0 m c t.val t.isLt).1
      = k0_pay1 (F := Ideal) (outsAt0 m c t.val t.isLt).2.2.2 (outsAt0 m c t.val t.isLt).2.2.1
          (iblk m c 2 t) (iblk m c 6 t) (iblk m c 3 t) (iblk m c 5 t) (iblk m c 4 t) := by
  have h0 : ¬t.val % 16 = 0 := by omega
  rw [outsAt0_C m c t h0 h1]
  dsimp only
  exact (Pieces.last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg₂ (fun a b => k0_pay1 (F := Ideal) a b (iblk m c 2 t) (iblk m c 6 t) (iblk m c 3 t) (iblk m c 5 t) (iblk m c 4 t))
      (Pieces.last_S c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm
      (Pieces.last_L c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm)

/-- After the last tile of a batch the denominator row and the numerator block are the sums over ALL input positions. -/
theorem denom_last (c : Dev nD) (t : Fin cfg0.N) (h1 : t.val % 16 = 15) (z : Fin 1) (mm : Fin 4096) :
    (outsAt0 m c t.val t.isLt).2.2.1 (ix2 z mm)
      = ∑ n : Fin 4096, wt (inp m c) (tgt m c) (Blocks.batch t) mm n := by
  rw [(holds m c t.val t.isLt).denom z mm, h1]
  exact tiles_all _

theorem numer_last (c : Dev nD) (t : Fin cfg0.N) (h1 : t.val % 16 = 15) (cc : Fin 128) (mm : Fin 4096) :
    (outsAt0 m c t.val t.isLt).2.2.2 (ix2 cc mm)
      = ∑ n : Fin 4096, inp m c (ix3 (Blocks.batch t) cc n) * wt (inp m c) (tgt m c) (Blocks.batch t) mm n := by
  rw [(holds m c t.val t.isLt).numer cc mm, h1]
  exact tiles_all _

end Cert.KernelIdeal.Carry

end
-- ==== Proof.PayloadOut.lean ====
/-
  The kernel's final arithmetic, read at one element over the extended reals.

  From the running numerator `S` (a `[128, 4096]` array), the running denominator `L` (a `[1, 4096]` row), the
  weight matrix `w` and four per-channel columns, the result block at output channel `o` and position `m` is the
  projection `Σ_c w[c,o] · (S[c,m] / L[m])` passed through the leaky rectifier and the affine normalisation.
-/
import proofs.«154519_j17824114278455_2_alg».proof.Proof.Gen.KernelIdeal.Skeleton
import proofs.«154519_j17824114278455_2_alg».proof.Proof.Spec
import proofs.«154519_j17824114278455_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadOut

open Cert.KernelIdeal Cert.KernelIdeal.Gen Idealize.ShloMosaic Idealize.ShloMosaic.ValueIdx
open scoped BigOperators

/-- The left operand's contracted axis carries the contraction index … -/
private theorem lhs_0 (j : S128x4096.Idx) (q : dot_S128x128_S128x4096_S128x4096_0_0_1_1_n_n.contr.Idx) :
    (dot_S128x128_S128x4096_S128x4096_0_0_1_1_n_n.lhsIdx j q 0).val = (q ⟨0, by decide⟩).val :=
  dot_S128x128_S128x4096_S128x4096_0_0_1_1_n_n.lhsIdx_val_of_single rfl j q
/-- … and its free axis the output channel. -/
private theorem lhs_1 (j : S128x4096.Idx) (q : dot_S128x128_S128x4096_S128x4096_0_0_1_1_n_n.contr.Idx) :
    (dot_S128x128_S128x4096_S128x4096_0_0_1_1_n_n.lhsIdx j q 1).val = (j 0).val := by
  unfold DotDims.lhsIdx
  rw [dif_neg (show ¬(1 : Fin S128x128.rank) ∈ dot_S128x128_S128x4096_S128x4096_0_0_1_1_n_n.lhsBatch by decide),
    dif_pos (show (1 : Fin S128x128.rank) ∈ dot_S128x128_S128x4096_S128x4096_0_0_1_1_n_n.lhsNonContracting by decide)]
  rfl
/-- The right operand's contracted axis carries the contraction index … -/
private theorem rhs_0 (j : S128x4096.Idx) (q : dot_S128x128_S128x4096_S128x4096_0_0_1_1_n_n.contr.Idx) :
    (dot_S128x128_S128x4096_S128x4096_0_0_1_1_n_n.rhsIdx j q 0).val = (q ⟨0, by decide⟩).val :=
  dot_S128x128_S128x4096_S128x4096_0_0_1_1_n_n.rhsIdx_val_of_single rfl j q
/-- … and its free axis the position. -/
private theorem rhs_1 (j : S128x4096.Idx) (q : dot_S128x128_S128x4096_S128x4096_0_0_1_1_n_n.contr.Idx) :
    (dot_S128x128_S128x4096_S128x4096_0_0_1_1_n_n.rhsIdx j q 1).val = (j 1).val := by
  unfold DotDims.rhsIdx
  rw [dif_neg (show ¬(1 : Fin S128x4096.rank) ∈ dot_S128x128_S128x4096_S128x4096_0_0_1_1_n_n.rhsBatch by decide),
    dif_pos (show (1 : Fin S128x4096.rank) ∈ dot_S128x128_S128x4096_S128x4096_0_0_1_1_n_n.rhsNonContracting by decide)]
  rfl

/-- The left operand of the projection is read at (contracted channel, output channel). -/
private theorem lhs_idx (o : Fin 128) (mm : Fin 4096) (k : Fin 128) :
    dot_S128x128_S128x4096_S128x4096_0_0_1_1_n_n.lhsIdx (ix2 o mm) ((contrEquiv1 dot_S128x128_S128x4096_S128x4096_0_0_1_1_n_n 128 rfl rfl).symm k) = ix2 k o := by
  have hk := contrEquiv1_symm_val dot_S128x128_S128x4096_S128x4096_0_0_1_1_n_n 128 rfl rfl k
  refine funext fun a => Fin.ext ?_
  match a with
  | ⟨0, _⟩ => exact (lhs_0 _ _).trans hk
  | ⟨1, _⟩ => exact lhs_1 _ _

/-- The right operand of the projection is read at (contracted channel, position). -/
private theorem rhs_idx (o : Fin 128) (mm : Fin 4096) (k : Fin 128) :
    dot_S128x128_S128x4096_S128x4096_0_0_1_1_n_n.rhsIdx (ix2 o mm) ((contrEquiv1 dot_S128x128_S128x4096_S128x4096_0_0_1_1_n_n 128 rfl rfl).symm k) = ix2 k mm := by
  have hk := contrEquiv1_symm_val dot_S128x128_S128x4096_S128x4096_0_0_1_1_n_n 128 rfl rfl k
  refine funext fun a => Fin.ext ?_
  match a with
  | ⟨0, _⟩ => exact (rhs_0 _ _).trans hk
  | ⟨1, _⟩ => exact rhs_1 _ _

/-- The projection into a zero accumulator at (output channel, position): `Σ_c wt[c,o] · q[c,m]`. -/
private theorem proj_apply {φ₁ φ₂ : FTy} (wt : FVec Ideal S128x128 φ₁) (q : FVec Ideal S128x4096 φ₂) (o : Fin 128) (mm : Fin 4096) :
    FloatOps.matmul dot_S128x128_S128x4096_S128x4096_0_0_1_1_n_n none wt q (constant S128x4096 .f32 0x00000000#32) (ix2 o mm)
      = ∑ c : Fin 128, wt (ix2 c o) * q (ix2 c mm) := by
  rw [Ideal.matmul_constant_zero_apply, ← Equiv.sum_comp (contrEquiv1 dot_S128x128_S128x4096_S128x4096_0_0_1_1_n_n 128 rfl rfl).symm]
  refine Finset.sum_congr rfl fun k _ => ?_
  rw [lhs_idx o mm k, rhs_idx o mm k]

/-- The quotient the projection contracts, read at (channel, position): the numerator over the row's denominator. -/
private theorem quot_apply (S : Vec Ideal S128x4096 .f32) (L : Vec Ideal S1x4096 .f32) (c : Fin 128) (mm : Fin 4096) :
    (truncf .bf16 (divf S (broadcastTo S128x4096 L broadcasts_S1x4096_S128x4096)) bitsLt_bf16_f32 : FVec Ideal S128x4096 .bf16) (ix2 c mm)
      = Ideal.div (S (ix2 c mm)) (L (ix2 (0 : Fin 1) mm)) := by
  rw [truncf_apply, divf_apply, broadcastTo_1b_ab_apply]

/-- The projected value at (output channel, position). -/
private theorem y_apply (S : Vec Ideal S128x4096 .f32) (L : Vec Ideal S1x4096 .f32) (w : Vec Ideal S128x128 .f32)
    (o : Fin 128) (mm : Fin 4096) :
    FloatOps.matmul dot_S128x128_S128x4096_S128x4096_0_0_1_1_n_n none (truncf .bf16 w bitsLt_bf16_f32 : FVec Ideal S128x128 .bf16)
        (truncf .bf16 (divf S (broadcastTo S128x4096 L broadcasts_S1x4096_S128x4096)) bitsLt_bf16_f32 : FVec Ideal S128x4096 .bf16)
        (constant S128x4096 .f32 0x00000000#32) (ix2 o mm)
      = ∑ c : Fin 128, w (ix2 c o) * Ideal.div (S (ix2 c mm)) (L (ix2 (0 : Fin 1) mm)) := by
  refine (proj_apply _ _ o mm).trans (Finset.sum_congr rfl fun c _ => ?_)
  rw [quot_apply S L c mm, truncf_apply]

/-- The result block from the final numerator `S`, denominator `L`, the weight matrix and the per-channel columns. -/
theorem out_apply (S : Vec Ideal S128x4096 .f32) (L : Vec Ideal S1x4096 .f32) (w : Vec Ideal S128x128 .f32)
    (va g mu be : Vec Ideal S128x1 .f32) (z : Fin 1) (o : Fin 128) (mm : Fin 4096) :
    k0_pay1 (F := Ideal) S L w va g mu be (ix3 z o mm)
      = Cert.Attn.finish (∑ c : Fin 128, w (ix2 c o) * Ideal.div (S (ix2 c mm)) (L (ix2 (0 : Fin 1) mm)))
          (g (ix2 o (0 : Fin 1))) (be (ix2 o (0 : Fin 1))) (mu (ix2 o (0 : Fin 1))) (va (ix2 o (0 : Fin 1))) := by
  rw [← y_apply S L w o mm]
  simp only [k0_pay1]
  rw [shapeCast_ab_1ab_apply, addf_apply, mulf_apply, subf_apply,
    ColumnBroadcast.broadcastTo_a1_ab_apply, ColumnBroadcast.broadcastTo_a1_ab_apply,
    ColumnBroadcast.broadcastTo_a1_ab_apply]
  rw [shapeCast_self, shapeCast_self, shapeCast_self, shapeCast_self]
  rfl

end Cert.KernelIdeal.PayloadOut

end
-- ==== Proof.Result.lean ====
/-
  The kernel's result array, as one function of the argument arrays.

  Only the last tile of a batch writes its block back, and that block is batch `b` of the result: the numerator
  block over the denominator row — by then the sums over all 4096 input positions — projected by the weight matrix,
  rectified and normalised.  The eight written blocks tile the `[8, 128, 4096]` array, so after the run the array is
  the specification's `result` with the one-shift form of the aggregate.
-/
import proofs.«154519_j17824114278455_2_alg».proof.Proof.Gen.KernelIdeal.Value
import proofs.«154519_j17824114278455_2_alg».proof.Proof.Carry
import proofs.«154519_j17824114278455_2_alg».proof.Proof.PayloadOut

noncomputable section

namespace Cert.KernelIdeal.Result

open Cert.KernelIdeal Cert.KernelIdeal.Gen Idealize.ShloMosaic Idealize.ShloMosaic.TcCoe Idealize.SL.Sem
open Idealize.ShloMosaic.ValueIdx Cert.Attn
open Idealize.ShloMosaic.Pipeline (Dat)
open scoped BigOperators

variable (m : (ℓ : Loc nD τ sig) → Buf (Elt Ideal) ℓ) (ρ : Dev nD → PrngReg)

/-- What the result array ends holding on core `c`. -/
def G (c : Dev nD) : A3.Idx → EReal :=
  result (m ((c : Thread nD τ).loc main_arg2)) (m ((c : Thread nD τ).loc main_arg3)) (m ((c : Thread nD τ).loc main_arg4))
    (m ((c : Thread nD τ).loc main_arg5)) (m ((c : Thread nD τ).loc main_arg6))
    (aggShift (Carry.inp m c) (Carry.tgt m c) shift)

/-- The block the last tile of a batch stores is that batch of `G`. -/
theorem block_last (c : Dev nD) (t : Fin cfg0.N) (h1 : t.val % 16 = 15) (z : Fin 1) (o : Fin 128) (mm : Fin 4096) :
    (outsAt0 m c t.val t.isLt).1 (ix3 z o mm) = G m c (ix3 (Blocks.batch t) o mm) := by
  refine (congrFun (Carry.out_last m c t h1) (ix3 z o mm)).trans ?_
  refine (PayloadOut.out_apply _ _ (iblk m c 2 t) (iblk m c 6 t) (iblk m c 3 t) (iblk m c 5 t) (iblk m c 4 t) z o mm).trans ?_
  rw [Blocks.gamma_apply m c t o, Blocks.beta_apply m c t o, Blocks.mean_apply m c t o, Blocks.var_apply m c t o]
  show finish _ _ _ _ _ = finish (proj (m ((c : Thread nD τ).loc main_arg2))
      (fun cc => aggShift (Carry.inp m c) (Carry.tgt m c) shift (Blocks.batch t) cc mm) o)
    (m ((c : Thread nD τ).loc main_arg3) (ix1 o)) (m ((c : Thread nD τ).loc main_arg4) (ix1 o))
    (m ((c : Thread nD τ).loc main_arg5) (ix1 o)) (m ((c : Thread nD τ).loc main_arg6) (ix1 o))
  refine congrArg (fun y => finish y _ _ _ _) ?_
  unfold proj aggShift
  refine Finset.sum_congr rfl fun cc _ => ?_
  rw [Blocks.weight_apply m c t cc o, Carry.numer_last m c t h1 cc mm, Carry.denom_last m c t h1 0 mm]
  rfl

/-- The same at any index of the block. -/
theorem block_last_at (c : Dev nD) (t : Fin cfg0.N) (h1 : t.val % 16 = 15) (y : S1x128x4096.Idx) :
    (outsAt0 m c t.val t.isLt).1 y
      = G m c (ix3 (n0 := 8) (n1 := 128) (n2 := 4096) (Blocks.batch t) (y 1) (y 2)) := by
  have e : y = ix3 (y 0) (y 1) (y 2) := eq_ix3 (n0 := 1) (n1 := 128) (n2 := 4096) y
  exact (congrArg (outsAt0 m c t.val t.isLt).1 e).trans (block_last m c t h1 (y 0) (y 1) (y 2))

/-- What the last tile of a batch writes back is its block of `G`. -/
theorem flushed_eq (c : Dev nD) (t : Fin cfg0.N) (hf : (cfg0.win 7).flush t = true) :
    (dats m 0 c).flushed 7 t = ((cfg0.win 7).blk t).view.read (Elt Ideal) (G m c) := by
  have h1 : t.val % 16 = 15 := (flush0_7 t).mp hf
  obtain ⟨e0, e1, e2⟩ := Blocks.idx7 t
  rw [Value.flushed7]
  funext y
  show (outsAt0 m c t.val t.isLt).1 y = G m c (((cfg0.win 7).blk t).view.emb y)
  refine (block_last_at m c t h1 y).trans ?_
  refine congrArg (G m c) (funext fun a => Fin.ext ?_)
  match a with
  | ⟨0, _⟩ =>
    show t.val / 16 = win0_7.index t 0 * 1 + 1 * (y 0).val
    have : (y 0).val < 1 := (y 0).isLt
    rw [e0]; omega
  | ⟨1, _⟩ => show (y 1).val = win0_7.index t 1 * 128 + 1 * (y 1).val; rw [e1]; omega
  | ⟨2, _⟩ => show (y 2).val = win0_7.index t 2 * 4096 + 1 * (y 2).val; rw [e2]; omega

/-- An index of the array is in point `t`'s block iff each coordinate is in the block's range on its axis. -/
theorem mem_blk (t : Fin cfg0.N) (i : S8x128x4096.Idx) :
    i ∈ ((cfg0.win 7).blk t).view.set ↔ ∀ a : Fin 3, win0_7.index t a * S1x128x4096.size a ≤ (i a).val
      ∧ (i a).val < win0_7.index t a * S1x128x4096.size a + S1x128x4096.size a := by
  show i ∈ ((View.whole main_v4).slice (win0_7.rect t)).set ↔ _
  rw [View.set_slice_whole, Rect.mem_set_unit]
  exact Iff.rfl

/-- Every index of the result array is in the block written back by the last tile of its batch. -/
theorem cover (i : S8x128x4096.Idx) : ∃ t : Fin cfg0.N, (cfg0.win 7).flush t = true ∧ i ∈ ((cfg0.win 7).blk t).view.set := by
  have hi0 : (i 0).val < 8 := (i 0).isLt
  have hi1 : (i 1).val < 128 := (i 1).isLt
  have hi2 : (i 2).val < 4096 := (i 2).isLt
  have hN : cfg0.N = 128 := N_0
  let t : Fin cfg0.N := ⟨16 * (i 0).val + 15, by rw [hN]; omega⟩
  have ht : t.val = 16 * (i 0).val + 15 := rfl
  obtain ⟨e0, e1, e2⟩ := Blocks.idx7 t
  refine ⟨t, (flush0_7 t).mpr (by rw [ht]; omega), ?_⟩
  rw [mem_blk]
  intro a
  match a with
  | ⟨0, _⟩ => show win0_7.index t 0 * 1 ≤ (i 0).val ∧ (i 0).val < win0_7.index t 0 * 1 + 1; rw [e0, ht]; omega
  | ⟨1, _⟩ => show win0_7.index t 1 * 128 ≤ (i 1).val ∧ (i 1).val < win0_7.index t 1 * 128 + 128; rw [e1]; omega
  | ⟨2, _⟩ => show win0_7.index t 2 * 4096 ≤ (i 2).val ∧ (i 2).val < win0_7.index t 2 * 4096 + 4096; rw [e2]; omega

/-- After the run the result array is `G`. -/
theorem final (c : Dev nD) : (dats m 0 c).arrAt 7 cfg0.N = G m c :=
  (dats m 0 c).arrAt_eq_of_cover 7 (G m c) (flushed_eq m c) cover

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.RefValue.lean ====
/-
  The reference program read one stage at a time: its result is the common specification, with the softmax in the
  form that divides every weight by the row's sum before the weighted sum (`aggSoft`), shifted by the row maximum.

  Each lemma reads one group of stages at an index named by its coordinates:
  the clamped column lengths and the unit columns, the cosine scores, the softmax weights, the aggregate, the
  projection by the weight matrix, and the rectifier and normalisation that follow.
-/
import proofs.«154519_j17824114278455_2_alg».proof.Proof.Gen.ReferenceIdeal.Read
import proofs.«154519_j17824114278455_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- An array of shape `[8, 128, 4096]` over the extended reals. -/
abbrev Arr3 : Type := (⟨S8x128x4096, .f32⟩ : BufTy).Contents (Elt Ideal)
/-- An array of shape `[128, 128]` over the extended reals. -/
abbrev Arr2 : Type := (⟨S128x128, .f32⟩ : BufTy).Contents (Elt Ideal)
/-- An array of shape `[128]` over the extended reals. -/
abbrev Arr1 : Type := (⟨S128, .f32⟩ : BufTy).Contents (Elt Ideal)

/-- The target's clamped column length: `max (√(Σ_c T[b,c,j]²)) floor`, the same for every channel `c`. -/
theorem len_T_at (x1 : Arr3) (b : Fin 8) (c : Fin 128) (j : Fin 4096) :
    val_main_v6 (F := Ideal) x1 (ix3 b c j) = Cert.Attn.len x1 b j := by
  have hi : ∀ k : Fin 128, idx_main_v1 (idx_main_v2 (idx_main_v6 (ix3 b c j))) k = ix3 b k j := fun k =>
    funext fun a => Fin.ext (by match a with | ⟨0, _⟩ => rfl | ⟨1, _⟩ => rfl | ⟨2, _⟩ => rfl)
  rw [val_main_v6_apply, val_main_v5_apply, val_main_v3_apply, val_main_v2_apply, val_main_v1_apply,
    val_main_v4_apply, val_main_cst_0_apply, val_main_cst_apply]
  simp only [val_main_v0_apply, hi, Ideal.maximumf_def, Ideal.hostUnary_sqrt_def, Ideal.mulf_def, Ideal.ofBits_def,
    Ideal.ofBits_zero_f32, zero_add]
  rfl

/-- The input's clamped column length. -/
theorem len_X_at (x0 : Arr3) (b : Fin 8) (c : Fin 128) (j : Fin 4096) :
    val_main_v14 (F := Ideal) x0 (ix3 b c j) = Cert.Attn.len x0 b j := by
  have hi : ∀ k : Fin 128, idx_main_v9 (idx_main_v10 (idx_main_v14 (ix3 b c j))) k = ix3 b k j := fun k =>
    funext fun a => Fin.ext (by match a with | ⟨0, _⟩ => rfl | ⟨1, _⟩ => rfl | ⟨2, _⟩ => rfl)
  rw [val_main_v14_apply, val_main_v13_apply, val_main_v11_apply, val_main_v10_apply, val_main_v9_apply,
    val_main_v12_apply, val_main_cst_2_apply, val_main_cst_1_apply]
  simp only [val_main_v8_apply, hi, Ideal.maximumf_def, Ideal.hostUnary_sqrt_def, Ideal.mulf_def, Ideal.ofBits_def,
    Ideal.ofBits_zero_f32, zero_add]
  rfl

/-- The target's unit column. -/
theorem unit_T_at (x1 : Arr3) (b : Fin 8) (c : Fin 128) (j : Fin 4096) :
    val_main_v7 (F := Ideal) x1 (ix3 b c j) = Cert.Attn.unit x1 b c j := by
  rw [val_main_v7_apply, len_T_at, Ideal.hostDivf_def]
  rfl

/-- The input's unit column. -/
theorem unit_X_at (x0 : Arr3) (b : Fin 8) (c : Fin 128) (j : Fin 4096) :
    val_main_v15 (F := Ideal) x0 (ix3 b c j) = Cert.Attn.unit x0 b c j := by
  rw [val_main_v15_apply, len_X_at, Ideal.hostDivf_def]
  rfl

/-- The cosine score: the inner product of the two unit columns. -/
theorem score_at (x0 x1 : Arr3) (b : Fin 8) (m n : Fin 4096) :
    val_main_v16 (F := Ideal) x0 x1 (ix3 b m n) = Cert.Attn.score x0 x1 b m n := by
  have hl : ∀ k : Fin 128, lidx_main_v16 (ix3 b m n) k = ix3 b k m := fun k =>
    funext fun a => Fin.ext (by match a with | ⟨0, _⟩ => rfl | ⟨1, _⟩ => rfl | ⟨2, _⟩ => rfl)
  have hr : ∀ k : Fin 128, ridx_main_v16 (ix3 b m n) k = ix3 b k n := fun k =>
    funext fun a => Fin.ext (by match a with | ⟨0, _⟩ => rfl | ⟨1, _⟩ => rfl | ⟨2, _⟩ => rfl)
  rw [val_main_v16_apply]
  unfold Cert.Attn.score
  refine Finset.sum_congr rfl fun k _ => ?_
  rw [hl, hr, unit_T_at, unit_X_at]

/-- The shifted score's exponential, the shift being the row's maximum stage. -/
theorem exp_at (x0 x1 : Arr3) (b : Fin 8) (m n : Fin 4096) :
    val_main_v23 (F := Ideal) x0 x1 (ix3 b m n)
      = Ideal.exp (Cert.Attn.score x0 x1 b m n - val_main_v19 (F := Ideal) x0 x1 (ix2 b m)) := by
  have hi : idx_main_v20 (idx_main_v21 (ix3 b m n)) = ix2 b m :=
    funext fun a => Fin.ext (by match a with | ⟨0, _⟩ => rfl | ⟨1, _⟩ => rfl)
  rw [val_main_v23_apply, val_main_v22_apply, val_main_v21_apply, val_main_v20_apply, hi, score_at,
    Ideal.hostUnary_exp_def, Ideal.subf_def]

/-- The row's sum of exponentials, the same for every position `n` of the row. -/
theorem rowsum_at (x0 x1 : Arr3) (b : Fin 8) (m n : Fin 4096) :
    val_main_v26 (F := Ideal) x0 x1 (ix3 b m n)
      = ∑ k : Fin 4096, Ideal.exp (Cert.Attn.score x0 x1 b m k - val_main_v19 (F := Ideal) x0 x1 (ix2 b m)) := by
  have hi : ∀ k : Fin 4096, idx_main_v24 (idx_main_v25 (idx_main_v26 (ix3 b m n))) k = ix3 b m k := fun k =>
    funext fun a => Fin.ext (by match a with | ⟨0, _⟩ => rfl | ⟨1, _⟩ => rfl | ⟨2, _⟩ => rfl)
  rw [val_main_v26_apply, val_main_v25_apply, val_main_v24_apply, val_main_cst_5_apply, Ideal.ofBits_def,
    Ideal.ofBits_zero_f32, zero_add]
  refine Finset.sum_congr rfl fun k _ => ?_
  rw [hi, exp_at]

/-- The softmax weight: the exponential divided by the row's sum. -/
theorem weight_at (x0 x1 : Arr3) (b : Fin 8) (m n : Fin 4096) :
    val_main_v27 (F := Ideal) x0 x1 (ix3 b m n)
      = Ideal.div (Ideal.exp (Cert.Attn.score x0 x1 b m n - val_main_v19 (F := Ideal) x0 x1 (ix2 b m)))
          (∑ k : Fin 4096, Ideal.exp (Cert.Attn.score x0 x1 b m k - val_main_v19 (F := Ideal) x0 x1 (ix2 b m))) := by
  rw [val_main_v27_apply, exp_at, rowsum_at, Ideal.hostDivf_def]

/-- The aggregate: the weighted sum of the input's columns. -/
theorem agg_at (x0 x1 : Arr3) (b : Fin 8) (m : Fin 4096) (c : Fin 128) :
    val_main_v28 (F := Ideal) x0 x1 (ix3 b m c)
      = Cert.Attn.aggSoft x0 x1 (val_main_v19 (F := Ideal) x0 x1 (ix2 b m)) b m c := by
  have hl : ∀ k : Fin 4096, lidx_main_v28 (ix3 b m c) k = ix3 b m k := fun k =>
    funext fun a => Fin.ext (by match a with | ⟨0, _⟩ => rfl | ⟨1, _⟩ => rfl | ⟨2, _⟩ => rfl)
  have hr : ∀ k : Fin 4096, ridx_main_v28 (ix3 b m c) k = ix3 b c k := fun k =>
    funext fun a => Fin.ext (by match a with | ⟨0, _⟩ => rfl | ⟨1, _⟩ => rfl | ⟨2, _⟩ => rfl)
  rw [val_main_v28_apply]
  unfold Cert.Attn.aggSoft
  refine Finset.sum_congr rfl fun k _ => ?_
  rw [hl, hr, weight_at]

/-- The projection of the aggregated column by the weight matrix. -/
theorem proj_at (x0 x1 : Arr3) (x2 : Arr2) (b : Fin 8) (o : Fin 128) (m : Fin 4096) :
    val_main_v30 (F := Ideal) x0 x1 x2 (ix3 b o m)
      = Cert.Attn.proj x2 (fun c => Cert.Attn.aggSoft x0 x1 (val_main_v19 (F := Ideal) x0 x1 (ix2 b m)) b m c) o := by
  have hl : ∀ k : Fin 128, lidx_main_v29 (idx_main_v30 (ix3 b o m)) k = ix2 k o := fun k =>
    funext fun a => Fin.ext (by match a with | ⟨0, _⟩ => rfl | ⟨1, _⟩ => rfl)
  have hr : ∀ k : Fin 128, ridx_main_v29 (idx_main_v30 (ix3 b o m)) k = ix3 b m k := fun k =>
    funext fun a => Fin.ext (by match a with | ⟨0, _⟩ => rfl | ⟨1, _⟩ => rfl | ⟨2, _⟩ => rfl)
  rw [val_main_v30_apply, val_main_v29_apply]
  unfold Cert.Attn.proj
  refine Finset.sum_congr rfl fun k _ => ?_
  rw [hl, hr, agg_at]

/-- What follows the projection: the leaky rectifier, then the normalisation by the running statistics. -/
theorem tail_at (x0 x1 : Arr3) (x2 : Arr2) (x3 x4 x5 x6 : Arr1) (b : Fin 8) (o : Fin 128) (m : Fin 4096) :
    val_main_v48 (F := Ideal) x0 x1 x2 x3 x4 x5 x6 (ix3 b o m)
      = Cert.Attn.finish (val_main_v30 (F := Ideal) x0 x1 x2 (ix3 b o m)) (x3 (ix1 o)) (x4 (ix1 o)) (x5 (ix1 o))
          (x6 (ix1 o)) := by
  have h40 : idx_main_v39 (idx_main_v40 (ix3 b o m)) = ix1 o :=
    funext fun a => Fin.ext (by match a with | ⟨0, _⟩ => rfl)
  have h44 : idx_main_v43 (idx_main_v44 (ix3 b o m)) = ix1 o :=
    funext fun a => Fin.ext (by match a with | ⟨0, _⟩ => rfl)
  have h47 : idx_main_v46 (idx_main_v47 (ix3 b o m)) = ix1 o :=
    funext fun a => Fin.ext (by match a with | ⟨0, _⟩ => rfl)
  rw [val_main_v48_apply, val_main_v45_apply, val_main_v47_apply, val_main_v46_apply, h47, val_main_v44_apply,
    val_main_v43_apply, h44, val_main_v42_apply, val_main_v38_apply, val_main_v37_apply, val_main_v36_apply,
    val_main_cst_8_apply, val_main_v41_apply, val_main_v40_apply, val_main_v39_apply, h40, val_main_v35_apply,
    val_main_v32_apply, val_main_v34_apply, val_main_v33_apply, val_main_cst_7_apply, val_main_v31_apply,
    val_main_cst_6_apply]
  simp only [Ideal.addf_def, Ideal.mulf_def, Ideal.subf_def, Ideal.hostUnary_rsqrt_def, Ideal.ofBits_def]
  rfl

/-- The reference's result is the specification's, with the softmax that divides every weight before the sum and
    shifts every row by its maximum stage. -/
theorem ref_eq (x0 x1 : (⟨S8x128x4096, .f32⟩ : BufTy).Contents (Elt Ideal))
    (x2 : (⟨S128x128, .f32⟩ : BufTy).Contents (Elt Ideal)) (x3 x4 x5 x6 : (⟨S128, .f32⟩ : BufTy).Contents (Elt Ideal)) :
    Cert.ReferenceIdeal.Read.val_main_v48 (F := Ideal) x0 x1 x2 x3 x4 x5 x6
      = Cert.Attn.result x2 x3 x4 x5 x6 (fun b c m =>
          Cert.Attn.aggSoft x0 x1 (Cert.ReferenceIdeal.Read.val_main_v19 (F := Ideal) x0 x1 (ValueIdx.ix2 b m)) b m c) := by
  funext i
  obtain ⟨b, o, m, rfl⟩ : ∃ b o m, i = ix3 b o m := ⟨i 0, i 1, i 2, eq_ix3 i⟩
  rw [tail_at, proj_at]
  rfl

/-! ## The row maximum is a real number -/

/-- The bit pattern of `−∞` denotes the least extended real. -/
theorem negInf_eq_bot : Ideal.ofBits .f32 0xFF800000#32 = (⊥ : EReal) := by
  simp [Ideal.ofBits, Ideal.ieee]

/-- The maximum of a nonempty finite family of real numbers, folded from a start below `⊤`, is a real number:
    it is at least one entry, so it is not `⊥`, and the start and every entry are below `⊤`, so it is not `⊤`. -/
theorem fold_max_real {ι : Type} (s : Finset ι) (hne : s.Nonempty) (c : EReal) (hc : c ≠ ⊤) (f : ι → EReal)
    (hf : ∀ k, ∃ r : ℝ, f k = (r : EReal)) : ∃ r : ℝ, s.fold max c f = (r : EReal) := by
  have htop : s.fold max c f ≠ ⊤ := by
    refine ne_of_lt ((Finset.fold_max_lt _).2 ⟨lt_top_iff_ne_top.2 hc, fun k _ => ?_⟩)
    obtain ⟨r, hr⟩ := hf k
    rw [hr]; exact EReal.coe_lt_top r
  have hbot : s.fold max c f ≠ ⊥ := by
    obtain ⟨k, hk⟩ := hne
    obtain ⟨r, hr⟩ := hf k
    refine ne_of_gt (lt_of_lt_of_le (EReal.bot_lt_coe r) ?_)
    rw [← hr]
    exact (Finset.le_fold_max _).2 (Or.inr ⟨k, hk, le_refl _⟩)
  exact ⟨(s.fold max c f).toReal, (EReal.coe_toReal htop hbot).symm⟩

/-- With coordinate `k` put back on the last axis, the row index `(b, m)` is `(b, m, k)`. -/
theorem lift_ix3 (h : S8x4096x4096.Reduces [2] S8x4096) (b : Fin 8) (m : Fin 4096) (k : Fin (S8x4096x4096.size 2)) :
    h.lift (ix2 b m) k = ix3 b m (⟨k.val, k.isLt⟩ : Fin 4096) := by
  funext c; apply Fin.ext
  match c with
  | ⟨0, _⟩ => rfl
  | ⟨1, _⟩ => rfl
  | ⟨2, _⟩ => rfl

/-- The reference's maximum reduce over a row is the fold of `max` from `−∞` over the row's scores. -/
theorem rowfold_at (x0 x1 : Arr3) (b : Fin 8) (m : Fin 4096) :
    val_main_v17 (F := Ideal) x0 x1 (ix2 b m)
      = (Finset.univ : Finset (Fin 4096)).fold max (Ideal.ofBits .f32 0xFF800000#32)
          (fun k => Cert.Attn.score x0 x1 b m k) := by
  have h : S8x4096x4096.Reduces [2] S8x4096 := by decide
  unfold val_main_v17
  rw [Host.reduce_eq_fold_single FloatOps.maximumf _ _ reducesTo_S8x4096x4096_S8x4096_d2 h h_S_]
  have hf : (val_main_v16 (F := Ideal) x0 x1 ∘ h.lift (ix2 b m)) = fun k : Fin 4096 => Cert.Attn.score x0 x1 b m k :=
    funext fun k => by rw [Function.comp_apply, lift_ix3, score_at]; rfl
  rw [hf]
  rfl

/-- The row maximum of real scores is a real number. -/
theorem rowmax_real (x0 x1 : (⟨S8x128x4096, .f32⟩ : BufTy).Contents (Elt Ideal))
    (hs : ∀ b m n, ∃ r : ℝ, Cert.Attn.score x0 x1 b m n = (r : EReal)) (b : Fin 8) (m : Fin 4096) :
    ∃ r : ℝ, Cert.ReferenceIdeal.Read.val_main_v19 (F := Ideal) x0 x1 (ValueIdx.ix2 b m) = (r : EReal) := by
  obtain ⟨r, hr⟩ := fold_max_real (Finset.univ : Finset (Fin 4096)) ⟨0, Finset.mem_univ _⟩
    (Ideal.ofBits .f32 0xFF800000#32) (by rw [negInf_eq_bot]; exact bot_ne_top)
    (fun k => Cert.Attn.score x0 x1 b m k) (fun k => hs b m k)
  refine ⟨r, ?_⟩
  rw [val_main_v19_apply, val_main_v18_apply, val_main_cst_4_apply, rowfold_at, hr, Ideal.ofBits_def, negInf_eq_bot,
    Ideal.maximumf_def]
  exact max_eq_right bot_le

end Cert.ReferenceIdeal.RefValue

end
-- ==== Proof.ShiftLaw.lean ====
/-
  The law that joins the two softmax forms, over the real numbers.

  For real scores `s n`, real values `x n` and ANY two real shifts `a`, `μ`,
  `(Σ_n x_n·e^{s_n − a}) / (Σ_n e^{s_n − a}) = Σ_n (e^{s_n − μ} / Σ_k e^{s_k − μ})·x_n`,
  because `e^{s − a} = e^{s − μ}·e^{μ − a}` and the common positive factor `e^{μ − a}` cancels.
  On the extended reals the step "pull the reciprocal of the denominator out of the sum" needs every
  term finite, so the scores of the specification are first shown to be real numbers.
-/
import Mathlib
import Idealize.ShloMosaic.PureOps.Ideal
import proofs.«154519_j17824114278455_2_alg».proof.Proof.Spec

namespace Cert.ShiftLaw

open Idealize.ShloMosaic Idealize.ShloMosaic.ValueIdx
open scoped BigOperators

/-- The inclusion of the reals in the extended reals commutes with finite sums. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The real identity: a common positive factor `e^{μ − a}` cancels between the weighted sum and the sum of weights. -/
theorem mean_shift_real {ι : Type} [Fintype ι] [Nonempty ι] (x s : ι → ℝ) (a μ : ℝ) :
    (∑ n, x n * Real.exp (s n - a)) * (1 / ∑ n, Real.exp (s n - a))
      = ∑ n, Real.exp (s n - μ) * (1 / ∑ k, Real.exp (s k - μ)) * x n := by
  have hpos : ∀ t : ℝ, 0 < ∑ n, Real.exp (s n - t) := fun t =>
    Finset.sum_pos (fun n _ => Real.exp_pos _) Finset.univ_nonempty
  have hc : ∀ n, Real.exp (s n - a) = Real.exp (s n - μ) * Real.exp (μ - a) := by
    intro n; rw [← Real.exp_add]; congr 1; ring
  have h1 : ∑ n, x n * Real.exp (s n - a) = Real.exp (μ - a) * ∑ n, x n * Real.exp (s n - μ) := by
    rw [Finset.mul_sum]; exact Finset.sum_congr rfl (fun n _ => by rw [hc n]; ring)
  have h2 : ∑ n, Real.exp (s n - a) = Real.exp (μ - a) * ∑ n, Real.exp (s n - μ) := by
    rw [Finset.mul_sum]; exact Finset.sum_congr rfl (fun n _ => by rw [hc n]; ring)
  have h3 : ∑ n, Real.exp (s n - μ) * (1 / ∑ k, Real.exp (s k - μ)) * x n
      = (∑ n, x n * Real.exp (s n - μ)) * (1 / ∑ k, Real.exp (s k - μ)) := by
    rw [Finset.sum_mul]; exact Finset.sum_congr rfl (fun n _ => by ring)
  rw [h1, h2, h3]
  have hE : (∑ k, Real.exp (s k - μ)) ≠ 0 := (hpos μ).ne'
  have hC : Real.exp (μ - a) ≠ 0 := (Real.exp_pos (μ - a)).ne'
  field_simp

/-- The same law on the extended reals, for real data: one shift and one division on the left,
    another shift and a division of every weight on the right. -/
theorem mean_shift {ι : Type} [Fintype ι] [Nonempty ι] (x s : ι → ℝ) (a μ : ℝ) :
    Ideal.div (∑ n, (x n : EReal) * Ideal.exp ((s n : EReal) - (a : EReal))) (∑ n, Ideal.exp ((s n : EReal) - (a : EReal)))
      = ∑ n, Ideal.div (Ideal.exp ((s n : EReal) - (μ : EReal))) (∑ k, Ideal.exp ((s k : EReal) - (μ : EReal))) * (x n : EReal) := by
  have hexp : ∀ (t : ℝ) (n : ι), Ideal.exp ((s n : EReal) - (t : EReal)) = ((Real.exp (s n - t) : ℝ) : EReal) := by
    intro t n; rw [← EReal.coe_sub, Ideal.exp_coe]
  have hpos : ∀ t : ℝ, 0 < ∑ n, Real.exp (s n - t) := fun t =>
    Finset.sum_pos (fun n _ => Real.exp_pos _) Finset.univ_nonempty
  have hden : ∀ t : ℝ, (∑ n, Ideal.exp ((s n : EReal) - (t : EReal))) = ((∑ n, Real.exp (s n - t) : ℝ) : EReal) := by
    intro t; rw [coe_sum]; exact Finset.sum_congr rfl (fun n _ => hexp t n)
  have hnum : (∑ n, (x n : EReal) * Ideal.exp ((s n : EReal) - (a : EReal)))
      = ((∑ n, x n * Real.exp (s n - a) : ℝ) : EReal) := by
    rw [coe_sum]; exact Finset.sum_congr rfl (fun n _ => by rw [hexp a n, EReal.coe_mul])
  have hterm : ∀ n, Ideal.div (Ideal.exp ((s n : EReal) - (μ : EReal))) ((∑ k, Real.exp (s k - μ) : ℝ) : EReal) * (x n : EReal)
      = ((Real.exp (s n - μ) * (1 / ∑ k, Real.exp (s k - μ)) * x n : ℝ) : EReal) := by
    intro n; rw [Ideal.div_coe (hpos μ).ne', hexp μ n, ← EReal.coe_mul, ← EReal.coe_mul]
  rw [hnum, hden a, hden μ, Ideal.div_coe (hpos a).ne', ← EReal.coe_mul,
    Finset.sum_congr rfl (fun n _ => hterm n), ← coe_sum, mean_shift_real x s a μ]

/-! ### The constants -/

/-- The clamp below a column's length is a positive real number: `(2^23 + 834764) · 2^(87 − 127 − 23)`. -/
theorem floor_pos : ∃ e : ℝ, 0 < e ∧ Cert.Attn.floor = (e : EReal) := by
  refine ⟨((2 ^ 23 + 834764 : ℕ) : ℝ) * (2 : ℝ) ^ ((87 : ℤ) - 127 - 23), by positivity, ?_⟩
  simp [Cert.Attn.floor, Ideal.ofBits, Ideal.ieee]

/-- The kernel's fixed shift of the scores is a real number (it is `1`). -/
theorem shift_real : ∃ a : ℝ, Cert.Attn.shift = (a : EReal) := by
  refine ⟨((2 ^ 23 + 0 : ℕ) : ℝ) * (2 : ℝ) ^ ((127 : ℤ) - 127 - 23), ?_⟩
  simp [Cert.Attn.shift, Ideal.ofBits, Ideal.ieee]

/-! ### Finiteness of the scores -/

/-- Every entry of the array is a real number. -/
def IsReal (A : Cert.Attn.A3.Idx → EReal) : Prop := ∀ i, ∃ r : ℝ, A i = (r : EReal)

/-- The maximum of two reals, taken in the extended reals, is the real maximum. -/
theorem coe_max (x y : ℝ) : max (x : EReal) (y : EReal) = ((max x y : ℝ) : EReal) :=
  (EReal.coe_strictMono.monotone.map_max).symm

/-- The clamped length of a column of a real array is a positive real number: the sum of squares is a
    nonnegative real, so its square root is a real, and the clamp is at least the positive floor. -/
theorem len_real {A : Cert.Attn.A3.Idx → EReal} (hA : IsReal A) (b : Fin 8) (j : Fin 4096) :
    ∃ l : ℝ, 0 < l ∧ Cert.Attn.len A b j = (l : EReal) := by
  choose f hf using hA
  obtain ⟨e, he, hfl⟩ := floor_pos
  have hsq : (∑ c : Fin 128, A (ix3 b c j) * A (ix3 b c j))
      = ((∑ c : Fin 128, f (ix3 b c j) * f (ix3 b c j) : ℝ) : EReal) := by
    rw [coe_sum]; exact Finset.sum_congr rfl (fun c _ => by rw [hf, EReal.coe_mul])
  have hnn : ¬ (∑ c : Fin 128, f (ix3 b c j) * f (ix3 b c j)) < 0 :=
    not_lt.mpr (Finset.sum_nonneg (fun c _ => mul_self_nonneg _))
  refine ⟨max (Real.sqrt (∑ c : Fin 128, f (ix3 b c j) * f (ix3 b c j))) e, lt_max_of_lt_right he, ?_⟩
  unfold Cert.Attn.len
  rw [hsq, Ideal.sqrt_coe, if_neg hnn, hfl, coe_max]

/-- An entry of a unit column of a real array is a real number: a real divided by a positive real. -/
theorem unit_real {A : Cert.Attn.A3.Idx → EReal} (hA : IsReal A) (b : Fin 8) (c : Fin 128) (j : Fin 4096) :
    ∃ r : ℝ, Cert.Attn.unit A b c j = (r : EReal) := by
  obtain ⟨l, hl, hlen⟩ := len_real hA b j
  obtain ⟨r, hr⟩ := hA (ix3 b c j)
  refine ⟨r * (1 / l), ?_⟩
  unfold Cert.Attn.unit
  rw [hlen, hr, Ideal.div_coe hl.ne', EReal.coe_mul]

/-- A score of two real arrays is a real number: a finite sum of products of reals. -/
theorem score_real {X T : Cert.Attn.A3.Idx → EReal} (hX : IsReal X) (hT : IsReal T) (b : Fin 8) (m n : Fin 4096) :
    ∃ r : ℝ, Cert.Attn.score X T b m n = (r : EReal) := by
  choose u hu using fun c => unit_real hT b c m
  choose v hv using fun c => unit_real hX b c n
  refine ⟨∑ c : Fin 128, u c * v c, ?_⟩
  unfold Cert.Attn.score
  rw [coe_sum]; exact Finset.sum_congr rfl (fun c _ => by rw [hu, hv, EReal.coe_mul])

/-! ### The law at the specification -/

/-- For real arrays the aggregate with the fixed shift and one division equals the aggregate with any real
    shift `μ` and every weight divided before the sum. -/
theorem agg_eq {X T : Cert.Attn.A3.Idx → EReal} (hX : IsReal X) (hT : IsReal T) (μ : ℝ)
    (b : Fin 8) (c : Fin 128) (m : Fin 4096) :
    Cert.Attn.aggShift X T Cert.Attn.shift b c m = Cert.Attn.aggSoft X T (μ : EReal) b m c := by
  obtain ⟨a, ha⟩ := shift_real
  choose s hs using fun n => score_real hX hT b m n
  choose x hx using fun n => hX (ix3 b c n)
  unfold Cert.Attn.aggShift Cert.Attn.aggSoft
  simp only [hs, hx, ha]
  exact mean_shift x s a μ

end Cert.ShiftLaw
-- ==== Proof.Finite.lean ====
/-
  From the precondition to "every entry of the two large arrays is a real number".

  The precondition evaluates, for each of the seven argument arrays, `|x| < +∞` at every entry, reduces each
  array of truth values with "and", and joins the seven results with "and"; it states that the outcome is true.
  An "and" that is true had both operands true, a reduction by "and" that is true met only true entries, and an
  extended real `x` with `max x (−x) < ⊤` is neither `⊤` nor `⊥`, so it is a real number.
-/
import proofs.«154519_j17824114278455_2_alg».proof.Defs
import proofs.«154519_j17824114278455_2_alg».proof.Proof.ShiftLaw
import proofs.«154519_j17824114278455_2_alg».proof.Proof.Gen.Pre_finite_inputs
import Idealize.ShloMosaic.Lib.ReduceAll
import Idealize.ShloMosaic.Lib.ValueIdx

noncomputable section

namespace Cert.Finite

open Idealize.ShloMosaic Idealize.SL.Sem

/-- The bit pattern of the comparison's right-hand side denotes `+∞`. -/
theorem inf_eq_top : Ideal.ofBits .f32 0x7F800000#32 = (⊤ : EReal) := by
  simp [Ideal.ofBits, Ideal.ieee]

/-- An extended real whose absolute value `max x (−x)` is below `+∞` is a real number. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => exact absurd h (by simp [Ideal.cmp])
  | coe r => exact ⟨r, rfl⟩
  | top => exact absurd h (by simp [Ideal.cmp])

/-- The shape of a single number has one index. -/
instance : Subsingleton Cert.Pre_finite_inputs.S_.Idx := ⟨fun a b => funext fun d => d.elim0⟩

/-- One array of the precondition: if the "and" over all entries of `|x| < +∞` is true, every entry is real. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j : Cert.Pre_finite_inputs.S_.Idx)
    (e : Host.reduce IntOp.andi
        (cmpf .olt (Host.absf x) (broadcastInDim s ![] hb (constant Cert.Pre_finite_inputs.S_ .f32 0x7F800000#32)))
        (constantI Cert.Pre_finite_inputs.S_ 1 1#1) hr hu j = 1#1)
    (i : s.Idx) : ∃ r : ℝ, x i = (r : EReal) :=
  real_of_abs_lt (x i) (Host.reduce_andi_all _ _ hr hu j e i)

/-- The precondition decoded: the first two of its seven joined "and" results are true. -/
theorem pre_two [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal)) := by
  have e := congrFun (h c) ValueIdx.ix0
  unfold Cert.Pre_finite_inputs.fn Cert.Pre_finite_inputs.fn_part1 at e
  simp only [andi] at e
  simp only [IntOp.andi_eq_one] at e
  obtain ⟨⟨⟨⟨⟨⟨h0, h1⟩, -⟩, -⟩, -⟩, -⟩, -⟩ := e
  exact ⟨fun i => all_real _ _ _ _ _ h0 i, fun i => all_real _ _ _ _ _ h1 i⟩

/-- Every entry of the first argument array is a real number. -/
theorem input_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.ShiftLaw.IsReal (m ((c.tc : Thread Cert.KernelIdeal.nD Cert.KernelIdeal.τ).loc Cert.KernelIdeal.main_arg0)) :=
  (pre_two m h c).1

/-- Every entry of the second argument array is a real number. -/
theorem target_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.ShiftLaw.IsReal (m ((c.tc : Thread Cert.KernelIdeal.nD Cert.KernelIdeal.τ).loc Cert.KernelIdeal.main_arg1)) :=
  (pre_two m h c).2

end Cert.Finite

end
-- ==== Proof.lean ====
/-
  The certificate of a fused cosine-attention kernel against its plain reference.

  Both programs take `input` and `target_g` of shape `[8, 128, 4096]` (batch × channel × position), scale every
  column to unit length (the length clamped below by a small positive constant), score each target position `m`
  against each input position `n` by the inner product of the two unit columns, turn each row of scores into softmax
  weights over `n`, average the input columns with those weights, project the average by the `[128, 128]` weight
  matrix, and finish with a leaky rectifier and an affine normalisation by running statistics.

  The reference forms the softmax the usual way: subtract the row maximum, exponentiate, divide each weight by the
  row's sum, then take the weighted sum of the input columns.  The kernel walks the input positions in 16 tiles of
  256 per batch; it subtracts the constant `1` instead of the row maximum, keeps a running sum of the weights and a
  running weighted sum of the input columns, and divides once at the last tile.  Over the real numbers the two are
  equal: `e^{s − a} = e^{s − μ} · e^{μ − a}`, the common factor cancels between numerator and denominator, and the
  constant `1 / Σ_k e^{s_k − μ}` moves inside the sum.  On the extended reals the last two steps need every term to be
  finite, which the precondition gives: finite inputs make the column lengths positive reals, the unit columns,
  scores and weights reals, and the row maximum a real.  Sums re-associate freely (tile by tile against all at once),
  a change of float format is the identity, and a matrix product into a zero accumulator is the plain contraction.
  The projection, rectifier and normalisation are the same expression on both sides, applied to equal aggregates.

  Modules: `Spec` states both forms; `ShiftLaw` proves them equal for finite data; `Finite` reads finiteness off the
  precondition; `RefValue` reads the reference's operations at an index; `Pieces`, `Blocks`, `Payload`,
  `PayloadOut`, `TileSum`, `Carry` and `Result` read the kernel's run: what each grid point leaves in the carried
  buffers, in closed form by induction over the points, and the result array from the eight blocks written back.
-/
import proofs.«154519_j17824114278455_2_alg».proof.Defs
import proofs.«154519_j17824114278455_2_alg».proof.Proof.Gen.Kernel
import proofs.«154519_j17824114278455_2_alg».proof.Proof.Gen.Kernel.Skeleton
import proofs.«154519_j17824114278455_2_alg».proof.Proof.Gen.Kernel.Launch
import proofs.«154519_j17824114278455_2_alg».proof.Proof.Gen.Kernel.Points
import proofs.«154519_j17824114278455_2_alg».proof.Proof.Gen.Kernel.Frame
import proofs.«154519_j17824114278455_2_alg».proof.Proof.Gen.KernelIdeal
import proofs.«154519_j17824114278455_2_alg».proof.Proof.Gen.KernelIdeal.Skeleton
import proofs.«154519_j17824114278455_2_alg».proof.Proof.Gen.KernelIdeal.Launch
import proofs.«154519_j17824114278455_2_alg».proof.Proof.Gen.KernelIdeal.Points
import proofs.«154519_j17824114278455_2_alg».proof.Proof.Gen.KernelIdeal.Frame
import proofs.«154519_j17824114278455_2_alg».proof.Proof.Gen.ReferenceIdeal
import proofs.«154519_j17824114278455_2_alg».proof.Proof.Gen.KernelIdeal.Value
import proofs.«154519_j17824114278455_2_alg».proof.Proof.Gen.ReferenceIdeal.Run
import proofs.«154519_j17824114278455_2_alg».proof.Proof.Gen.ReferenceIdeal.Read
import proofs.«154519_j17824114278455_2_alg».proof.Proof.Gen.Pre_finite_inputs
import proofs.«154519_j17824114278455_2_alg».proof.Proof.Result
import proofs.«154519_j17824114278455_2_alg».proof.Proof.RefValue
import proofs.«154519_j17824114278455_2_alg».proof.Proof.ShiftLaw
import proofs.«154519_j17824114278455_2_alg».proof.Proof.Finite
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to read the kernel over the extended reals. -/
theorem preserves : Cert.preserves_Kernel_KernelIdeal := trivial

/-- From finite inputs the kernel ends at the one-shift form of the result and the reference at the row-maximum
    form; the inputs being real numbers, the scores and the row maxima are, and the two forms agree. -/
theorem algebraic : Cert.algebraic_KernelIdeal_ReferenceIdeal := by
  intro m ρ m' ρ' hpre hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  have hX := Cert.Finite.input_real m hpre c
  have hT := Cert.Finite.target_real m hpre c
  rw [Cert.ReferenceIdeal.Read.val_main_v48_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2]
  unfold Cert.KernelIdeal.Result.G
  refine congrArg (Cert.Attn.result _ _ _ _ _) (funext fun b => funext fun cc => funext fun mm => ?_)
  obtain ⟨μ, hμ⟩ := Cert.ReferenceIdeal.RefValue.rowmax_real _ _
    (fun b m n => Cert.ShiftLaw.score_real hX hT b m n) b mm
  rw [hμ]
  exact (Cert.ShiftLaw.agg_eq hX hT μ b cc mm).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
